-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_arg7 : FVec F S2x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S2x64 .f32) (main_arg6 : FVec F S2 .f32) (main_arg7 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S64x16 : Shape := ⟨2, ![64, 16]⟩
abbrev S64x2 : Shape := ⟨2, ![64, 2]⟩
abbrev S1 : Shape := ⟨1, ![1]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S1000000x16 : Shape := ⟨2, ![1000000, 16]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 67
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .bf16⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S_, .f32⟩
  | .hbm, ⟨44, _⟩ => ⟨S64x16, .f32⟩
  | .hbm, ⟨45, _⟩ => ⟨S64x2, .f32⟩
  | .hbm, ⟨46, _⟩ => ⟨S_, .i32⟩
  | .hbm, ⟨47, _⟩ => ⟨S1, .i32⟩
  | .hbm, ⟨48, _⟩ => ⟨S64x16, .f32⟩
  | .hbm, ⟨49, _⟩ => ⟨S100000x64, .f32⟩
  | .hbm, ⟨50, _⟩ => ⟨S100000x16, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x16, .f32⟩
  | .hbm, ⟨60, _⟩ => ⟨S_, .f32⟩
  | .hbm, ⟨61, _⟩ => ⟨S100000x16, .f32⟩
  | .hbm, ⟨62, _⟩ => ⟨S1000000x1, .i32⟩
  | .hbm, ⟨63, _⟩ => ⟨S100000x16, .f32⟩
  | .hbm, ⟨64, _⟩ => ⟨S64x2, .f32⟩
  | .hbm, ⟨65, _⟩ => ⟨S1x2, .f32⟩
  | .hbm, ⟨66, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x16, .f32⟩
  | .local _ .vmem, ⟨10, _⟩ => ⟨S5000x64, .f32⟩
  | .local _ .vmem, ⟨11, _⟩ => ⟨S5000x64, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  bcast_S_S64x16 : S_.BroadcastsInDim S64x16 (![] : Fin 0 → Fin S64x16.rank)
  transposes_S2x64_S64x2_1_0 : S2x64.Transposes [1, 0] S64x2
  bcast_S_S1 : S_.BroadcastsInDim S1 (![] : Fin 0 → Fin S1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S2_S1x2 : S2.ShapeCasts S1x2
  shapeCasts_S5000x16_S5000x16 : S5000x16.ShapeCasts S5000x16
  broadcasts_S5000x1_S5000x16 : S5000x1.Broadcasts S5000x16
  slices_S5000x16_o0_0_S5000x2 : S5000x16.Slices ![0, 0] S5000x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S64x16_S1_S64x2_01_n_1_0_wf : ScatterDims.WF S64x16 S1 S64x2 [0, 1] [] [1] 0
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x16.size a ≤ S64x16.size a
  hwx0_6 : ∀ i : grid0.Coords, EltTy.bits .f32 = 32 ∨ (Rect.block (s := S64x16) S64x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x16.size a ≤ S100000x16.size a
  hwx0_8 : ∀ i : grid0.Coords, EltTy.bits .f32 = 32 ∨ (Rect.block (s := S100000x16) S5000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S64x16_S1_S64x2_01_n_1_0 : ScatterDims S64x16 S1 S64x2 where
  updateWindowDims := [0, 1]
  insertedWindowDims := []
  scatterDimsToOperandDims := [1]
  indexVectorDim := 0
  wf := scatter_S64x16_S1_S64x2_01_n_1_0_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S64x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S5000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v42) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x2, .f32⟩
  | .hbm, ⟨74, _⟩ => ⟨S100000x2, .f32⟩
  | .hbm, ⟨75, _⟩ => ⟨S64x2, .f32⟩
  | .hbm, ⟨76, _⟩ => ⟨S100000x2, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result NAMED.

  @main is four segments: a stretch of host operations, the first pallas_call (the layer-1 combine), a second
  stretch, the second pallas_call (the layer-2 combine). The buffer contents at the four boundaries are a fold
  from the launch memory; at the return every unscoped buffer holds the last boundary's contents. Read at the
  result buffer this says: the result is what the second call's write-backs leave of its output window, and the
  eight argument arrays are as launched.
-/
import proofs.«115820_j81140522156079_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the array the
    second call's write-backs leave of its output window (window 5 of pipeline 1, entered at the contents after
    the second host stretch), and each argument array ends as launched. -/
theorem run : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v45 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayloads.lean ====
/-
  What the two kernels store, entry by entry, on the extended reals.

  Layer 1 (one block of 5000 rows): with s the block of neighbour sums, x the block of features, r the block of
  reciprocal degrees (one column), A, B the two 64×64 weight matrices laid out contraction-first and b the bias row,
    hidden (p, q) = max (Σ_k (s (p,k) · r (p,0)) · A (k,q) + Σ_k x (p,k) · B (k,q) + b (0,q)) 0,
  and the second store is the hidden block times the padded 64×16 projection matrix P:
    proj (p, j) = Σ_c hidden (p,c) · P (c,j).
  Layer 2: with u the block of summed projections (16 columns, the first two used), h the hidden block, C the
  64×2 weight matrix and d the bias row,
    out (p, j) = (Σ_c h (p,c) · C (c,j) + u (p,j) · r (p,0)) + d (0,j).
  A change of float format is the identity here and a matrix product into the zero accumulator is the plain sum.
-/
import proofs.«115820_j81140522156079_2_alg».proof.Proof.Gen.KernelIdeal.Skeleton
import proofs.«115820_j81140522156079_2_alg».proof.Proof.LibSplitContraction
import proofs.«115820_j81140522156079_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- A 5000×64 block times a 64×64 matrix into the zero accumulator, at (r, c). -/
theorem mm64_at (lhs : FVec Ideal S5000x64 .bf16) (rhs : FVec Ideal S64x64 .bf16) (r : Fin 5000) (c : Fin 64) :
    matmul dot_S5000x64_S64x64_S5000x64_1_0_0_1_n_n none lhs rhs (constant (F := Ideal) S5000x64 .f32 0x00000000#32) (ix2 r c)
      = ∑ k : Fin 64, lhs (ix2 r k) * rhs (ix2 k c) :=
  Cert.Lib.SplitContraction.matmul_zero_at dot_S5000x64_S64x64_S5000x64_1_0_0_1_n_n rfl rfl
    (fun j q => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun j q => dot_S5000x64_S64x64_S5000x64_1_0_0_1_n_n.lhsIdx_val_of_single rfl j q)
    (fun j q => dot_S5000x64_S64x64_S5000x64_1_0_0_1_n_n.rhsIdx_val_of_single rfl j q)
    (fun j q => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    none lhs rhs r c

/-- A 5000×64 block times a 64×16 matrix into the zero accumulator, at (r, c). -/
theorem mm16_at (lhs : FVec Ideal S5000x64 .bf16) (rhs : FVec Ideal S64x16 .bf16) (r : Fin 5000) (c : Fin 16) :
    matmul dot_S5000x64_S64x16_S5000x16_1_0_0_1_n_n none lhs rhs (constant (F := Ideal) S5000x16 .f32 0x00000000#32) (ix2 r c)
      = ∑ k : Fin 64, lhs (ix2 r k) * rhs (ix2 k c) :=
  Cert.Lib.SplitContraction.matmul_zero_at dot_S5000x64_S64x16_S5000x16_1_0_0_1_n_n rfl rfl
    (fun j q => by
      unfold DotDims.lhsIdx
      rw [dif_neg (show ¬(0 : Fin S5000x64.rank) ∈ dot_S5000x64_S64x16_S5000x16_1_0_0_1_n_n.lhsBatch by decide),
        dif_pos (show (0 : Fin S5000x64.rank) ∈ dot_S5000x64_S64x16_S5000x16_1_0_0_1_n_n.lhsNonContracting by decide)]
      rfl)
    (fun j q => dot_S5000x64_S64x16_S5000x16_1_0_0_1_n_n.lhsIdx_val_of_single rfl j q)
    (fun j q => dot_S5000x64_S64x16_S5000x16_1_0_0_1_n_n.rhsIdx_val_of_single rfl j q)
    (fun j q => by
      unfold DotDims.rhsIdx
      rw [dif_neg (show ¬(1 : Fin S64x16.rank) ∈ dot_S5000x64_S64x16_S5000x16_1_0_0_1_n_n.rhsBatch by decide),
        dif_pos (show (1 : Fin S64x16.rank) ∈ dot_S5000x64_S64x16_S5000x16_1_0_0_1_n_n.rhsNonContracting by decide)]
      rfl)
    none lhs rhs r c

/-- A 5000×64 block times a 64×2 matrix into the zero accumulator, at (r, c). -/
theorem mm2_at (lhs : FVec Ideal S5000x64 .bf16) (rhs : FVec Ideal S64x2 .bf16) (r : Fin 5000) (c : Fin 2) :
    matmul dot_S5000x64_S64x2_S5000x2_1_0_0_1_n_n none lhs rhs (constant (F := Ideal) S5000x2 .f32 0x00000000#32) (ix2 r c)
      = ∑ k : Fin 64, lhs (ix2 r k) * rhs (ix2 k c) :=
  Cert.Lib.SplitContraction.matmul_zero_at dot_S5000x64_S64x2_S5000x2_1_0_0_1_n_n rfl rfl
    (fun j q => by
      unfold DotDims.lhsIdx
      rw [dif_neg (show ¬(0 : Fin S5000x64.rank) ∈ dot_S5000x64_S64x2_S5000x2_1_0_0_1_n_n.lhsBatch by decide),
        dif_pos (show (0 : Fin S5000x64.rank) ∈ dot_S5000x64_S64x2_S5000x2_1_0_0_1_n_n.lhsNonContracting by decide)]
      rfl)
    (fun j q => dot_S5000x64_S64x2_S5000x2_1_0_0_1_n_n.lhsIdx_val_of_single rfl j q)
    (fun j q => dot_S5000x64_S64x2_S5000x2_1_0_0_1_n_n.rhsIdx_val_of_single rfl j q)
    (fun j q => by
      unfold DotDims.rhsIdx
      rw [dif_neg (show ¬(1 : Fin S64x2.rank) ∈ dot_S5000x64_S64x2_S5000x2_1_0_0_1_n_n.rhsBatch by decide),
        dif_pos (show (1 : Fin S64x2.rank) ∈ dot_S5000x64_S64x2_S5000x2_1_0_0_1_n_n.rhsNonContracting by decide)]
      rfl)
    none lhs rhs r c

/-- The hidden block at (p, q). -/
theorem hidden_apply (v0 : Vec Ideal S5000x1 .f32) (v2 v7 : Vec Ideal S5000x64 .f32) (v9 v12 : Vec Ideal S64x64 .f32)
    (v18 : Vec Ideal S1x64 .f32) (p : Fin 5000) (q : Fin 64) :
    k0_pay1 v0 v2 v7 v9 v12 v18 (ix2 p q)
      = max ((∑ k : Fin 64, (v2 (ix2 p k) * v0 (ix2 p (0 : Fin 1))) * v9 (ix2 k q))
              + (∑ k : Fin 64, v7 (ix2 p k) * v12 (ix2 k q)) + v18 (ix2 (0 : Fin 1) q)) 0 := by
  unfold k0_pay1
  simp only [shapeCast_self]
  rw [maximumf_apply, addf_apply, addf_apply, mm64_at, mm64_at, broadcast_apply, broadcastTo_1b_ab_apply]
  simp only [truncf_apply, mulf_apply, broadcastTo_a1_ab_apply]
  exact congrArg (max _) Ideal.ofBits_zero_f32

/-- The projected block at (p, j). -/
theorem proj_apply (v0 : Vec Ideal S5000x1 .f32) (v2 v7 : Vec Ideal S5000x64 .f32) (v9 v12 : Vec Ideal S64x64 .f32)
    (v18 : Vec Ideal S1x64 .f32) (v26 : Vec Ideal S64x16 .f32) (p : Fin 5000) (j : Fin 16) :
    k0_pay2 v0 v2 v7 v9 v12 v18 v26 (ix2 p j)
      = ∑ c : Fin 64, k0_pay1 v0 v2 v7 v9 v12 v18 (ix2 p c) * v26 (ix2 c j) := by
  unfold k0_pay2
  simp only [shapeCast_self]
  rw [mm16_at]
  simp only [truncf_apply]

/-- The layer-2 block at (p, j); j' is the same column number in the 16-wide block of summed projections. -/
theorem out_apply (v0 : Vec Ideal S5000x1 .f32) (v2 : Vec Ideal S5000x16 .f32) (v7 : Vec Ideal S5000x64 .f32)
    (v10 : Vec Ideal S64x2 .f32) (v15 : Vec Ideal S1x2 .f32) (p : Fin 5000) (j : Fin 2) (j' : Fin 16) (hj : j'.val = j.val) :
    k1_pay1 v0 v2 v7 v10 v15 (ix2 p j)
      = ((∑ c : Fin 64, v7 (ix2 p c) * v10 (ix2 c j)) + v2 (ix2 p j') * v0 (ix2 p (0 : Fin 1))) + v15 (ix2 (0 : Fin 1) j) := by
  unfold k1_pay1
  simp only [shapeCast_self]
  rw [addf_apply, addf_apply, mm2_at, broadcastTo_1b_ab_apply,
    slice2_axis1_apply 0 _ _ p j j' (by rw [hj, Nat.zero_add])]
  simp only [truncf_apply, mulf_apply, broadcastTo_a1_ab_apply]

end Cert.KernelIdeal.Payloads

end
-- ==== Proof.KernelRegions.lean ====
/-
  The arrays the two pallas_calls leave, each as one function of the arrays the call finds.

  Both calls walk the 100000 node rows in 20 blocks of 5000; block t of a row-blocked window is rows
  5000·t … 5000·t + 4999 of its array, and the weight and bias windows are their whole arrays at every point.
  A row of a kernel's result depends only on the same row of the row-blocked operands, so what point t writes
  back is block t of ONE whole-array function, and the 20 blocks tile the result array.
-/
import proofs.«115820_j81140522156079_2_alg».proof.Proof.Gen.KernelIdeal.Frame
import proofs.«115820_j81140522156079_2_alg».proof.Proof.KernelPayloads
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

/-! ## The three whole-array functions -/

/-- Layer 1 at node i, feature q: the neighbour sums scaled by the reciprocal degree and contracted with the first
    weight matrix, plus the node's own features contracted with the second, plus the bias, clamped below at 0. -/
def hiddenAt (s x : S100000x64.Idx → EReal) (r : S100000x1.Idx → EReal) (A B : S64x64.Idx → EReal) (b : S1x64.Idx → EReal)
    (i : Fin 100000) (q : Fin 64) : EReal :=
  max ((∑ k : Fin 64, (s (ix2 i k) * r (ix2 i (0 : Fin 1))) * A (ix2 k q))
        + (∑ k : Fin 64, x (ix2 i k) * B (ix2 k q)) + b (ix2 (0 : Fin 1) q)) 0

/-- The hidden features projected by the padded 64×16 matrix, at node i, column j. -/
def projAt (h : S100000x64.Idx → EReal) (P : S64x16.Idx → EReal) (i : Fin 100000) (j : Fin 16) : EReal :=
  ∑ c : Fin 64, h (ix2 i c) * P (ix2 c j)

/-- Layer 2 at node i, class j: the hidden features contracted with the weight matrix, plus the summed projections
    (column j of the 16) scaled by the reciprocal degree, plus the bias. -/
def outAt (u : S100000x16.Idx → EReal) (h : S100000x64.Idx → EReal) (r : S100000x1.Idx → EReal) (C : S64x2.Idx → EReal)
    (d : S1x2.Idx → EReal) (i : Fin 100000) (j : Fin 2) : EReal :=
  ((∑ c : Fin 64, h (ix2 i c) * C (ix2 c j)) + u (ix2 i ⟨j.val, by omega⟩) * r (ix2 i (0 : Fin 1))) + d (ix2 (0 : Fin 1) j)

def hiddenArr (s x : S100000x64.Idx → EReal) (r : S100000x1.Idx → EReal) (A B : S64x64.Idx → EReal) (b : S1x64.Idx → EReal) :
    S100000x64.Idx → EReal := fun i => hiddenAt s x r A B b (i 0) (i 1)
def projArr (h : S100000x64.Idx → EReal) (P : S64x16.Idx → EReal) : S100000x16.Idx → EReal := fun i => projAt h P (i 0) (i 1)
def outArr (u : S100000x16.Idx → EReal) (h : S100000x64.Idx → EReal) (r : S100000x1.Idx → EReal) (C : S64x2.Idx → EReal)
    (d : S1x2.Idx → EReal) : S100000x2.Idx → EReal := fun i => outAt u h r C d (i 0) (i 1)

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 5000·t + p of the array. -/
def row (t : Fin 20) (p : Fin 5000) : Fin 100000 := ⟨t.val * 5000 + p.val, by have := t.isLt; have := p.isLt; omega⟩

/-! ## The first call -/

/-- The printed index maps over the grid: a row-blocked window is at block t, a weight or bias window at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem lt20_0 (t : Fin cfg0.N) : t.val < 20 := lt_of_lt_of_eq t.isLt N_0
abbrev t20_0 (t : Fin cfg0.N) : Fin 20 := ⟨t.val, lt20_0 t⟩

/-- The neighbour sums' block read at (p, k). -/
theorem iblk0_0 (c : Dev nD) (t : Fin cfg0.N) (p : Fin 5000) (k : Fin 64) :
    (iblk0 V c 0 t : Vec Ideal S5000x64 .f32) (ix2 p k) = (V c main_v24 : S100000x64.Idx → EReal) (ix2 (row (t20_0 t) p) k) := by
  obtain ⟨e00, e01, -⟩ := idx_facts0 t
  unfold iblk0
  rw [View.read_apply]
  show (V c main_v24 : S100000x64.Idx → EReal) _ = _
  refine congrArg _ (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 64 + 1 * k.val = k.val; rw [e01]; omega

/-- The features' block read at (p, k). -/
theorem iblk0_1 (c : Dev nD) (t : Fin cfg0.N) (p : Fin 5000) (k : Fin 64) :
    (iblk0 V c 1 t : Vec Ideal S5000x64 .f32) (ix2 p k) = (V c main_arg0 : S100000x64.Idx → EReal) (ix2 (row (t20_0 t) p) k) := by
  obtain ⟨-, -, e10, e11, -⟩ := idx_facts0 t
  unfold iblk0
  rw [View.read_apply]
  show (V c main_arg0 : S100000x64.Idx → EReal) _ = _
  refine congrArg _ (funext fun a => Fin.ext ?_)
  match a with
  | ⟨0, _⟩ => show win0_1.index t (0 : Fin 2) * 5000 + 1 * p.val = t.val * 5000 + p.val; rw [e10]; omega
  | ⟨1, _⟩ => show win0_1.index t (1 : Fin 2) * 64 + 1 * k.val = k.val; rw [e11]; omega

/-- The reciprocal degrees' block read at (p, 0). -/
theorem iblk0_2 (c : Dev nD) (t : Fin cfg0.N) (p : Fin 5000) (u : Fin 1) :
    (iblk0 V c 2 t : Vec Ideal S5000x1 .f32) (ix2 p u) = (V c main_v12 : S100000x1.Idx → EReal) (ix2 (row (t20_0 t) p) u) := by
  obtain ⟨-, -, -, -, e20, e21, -⟩ := idx_facts0 t
  unfold iblk0
  rw [View.read_apply]
  show (V c main_v12 : S100000x1.Idx → EReal) _ = _
  refine congrArg _ (funext fun a => Fin.ext ?_)
  match a with
  | ⟨0, _⟩ => show win0_2.index t (0 : Fin 2) * 5000 + 1 * p.val = t.val * 5000 + p.val; rw [e20]; omega
  | ⟨1, _⟩ => show win0_2.index t (1 : Fin 2) * 1 + 1 * u.val = u.val; rw [e21]; omega

/-- The weight and bias windows are their whole arrays at every point. -/
theorem iblk0_3 (c : Dev nD) (t : Fin cfg0.N) (y : S64x64.Idx) :
    (iblk0 V c 3 t : Vec Ideal S64x64 .f32) y = (V c main_v25 : S64x64.Idx → EReal) y := by
  obtain ⟨-, -, -, -, -, -, e0, e1, -⟩ := idx_facts0 t
  unfold iblk0
  rw [View.read_apply]
  show (V c main_v25 : S64x64.Idx → EReal) _ = _
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega
theorem iblk0_4 (c : Dev nD) (t : Fin cfg0.N) (y : S64x64.Idx) :
    (iblk0 V c 4 t : Vec Ideal S64x64 .f32) y = (V c main_v26 : S64x64.Idx → EReal) y := by
  obtain ⟨-, -, -, -, -, -, -, -, e0, e1, -⟩ := idx_facts0 t
  unfold iblk0
  rw [View.read_apply]
  show (V c main_v26 : S64x64.Idx → EReal) _ = _
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega
theorem iblk0_5 (c : Dev nD) (t : Fin cfg0.N) (y : S1x64.Idx) :
    (iblk0 V c 5 t : Vec Ideal S1x64 .f32) y = (V c main_v27 : S1x64.Idx → EReal) y := by
  obtain ⟨-, -, -, -, -, -, -, -, -, -, e0, e1, -⟩ := idx_facts0 t
  unfold iblk0
  rw [View.read_apply]
  show (V c main_v27 : S1x64.Idx → EReal) _ = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega
theorem iblk0_6 (c : Dev nD) (t : Fin cfg0.N) (y : S64x16.Idx) :
    (iblk0 V c 6 t : Vec Ideal S64x16 .f32) y = (V c main_v31 : S64x16.Idx → EReal) y := by
  obtain ⟨-, -, -, -, -, -, -, -, -, -, -, -, e0, e1, -⟩ := idx_facts0 t
  unfold iblk0
  rw [View.read_apply]
  show (V c main_v31 : S64x16.Idx → EReal) _ = _
  refine congrArg _ (funext fun a => Fin.ext ?_)
  match a with
  | ⟨0, _⟩ => show win0_6.index t (0 : Fin 2) * 64 + 1 * (y 0).val = (y 0).val; rw [e0]; omega
  | ⟨1, _⟩ => show win0_6.index t (1 : Fin 2) * 16 + 1 * (y 1).val = (y 1).val; rw [e1]; omega

/-- The hidden payload of point t's blocks at (p, q) is the hidden function of the arrays at row 5000·t + p. -/
theorem hidden_point (c : Dev nD) (t : Fin cfg0.N) (p : Fin 5000) (q : Fin 64) :
    k0_pay1 (iblk0 V c 2 t) (iblk0 V c 0 t) (iblk0 V c 1 t) (iblk0 V c 3 t) (iblk0 V c 4 t) (iblk0 V c 5 t) (ix2 p q)
      = hiddenAt (V c main_v24) (V c main_arg0) (V c main_v12) (V c main_v25) (V c main_v26) (V c main_v27) (row (t20_0 t) p) q := by
  rw [Payloads.hidden_apply]
  unfold hiddenAt
  simp only [iblk0_0, iblk0_1, iblk0_2, iblk0_3, iblk0_4, iblk0_5]

/-- Where entry (p, q) of point t's hidden block sits in the array. -/
theorem emb0_7 (t : Fin cfg0.N) (p : Fin 5000) (q : Fin 64) :
    ((cfg0.win 7).blk t).view.emb (ix2 p q) = (ix2 (row (t20_0 t) p) q : S100000x64.Idx) := by
  obtain ⟨-, -, -, -, -, -, -, -, -, -, -, -, -, -, e0, e1, -⟩ := idx_facts0 t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 64 + 1 * q.val = q.val; rw [e1]; omega

theorem emb0_8 (t : Fin cfg0.N) (p : Fin 5000) (q : Fin 16) :
    ((cfg0.win 8).blk t).view.emb (ix2 p q) = (ix2 (row (t20_0 t) p) q : S100000x16.Idx) := by
  obtain ⟨-, -, -, -, -, -, -, -, -, -, -, -, -, -, -, -, e0, e1⟩ := idx_facts0 t
  refine funext fun a => Fin.ext ?_
  match a with
  | ⟨0, _⟩ => show win0_8.index t (0 : Fin 2) * 5000 + 1 * p.val = t.val * 5000 + p.val; rw [e0]; omega
  | ⟨1, _⟩ => show win0_8.index t (1 : Fin 2) * 16 + 1 * q.val = q.val; rw [e1]; omega

/-- What point t writes back of the hidden window is block t of the hidden function of the arrays. -/
theorem flushed_hidden (c : Dev nD) (t : Fin cfg0.N) :
    (dat0 V c).flushed 7 t = ((cfg0.win 7).blk t).view.read (Elt Ideal)
      (hiddenArr (V c main_v24) (V c main_arg0) (V c main_v12) (V c main_v25) (V c main_v26) (V c main_v27)) := by
  show (cfg0.win 7).cut (grid0.coords t) ((dat0 V c).after 7 t) = _
  rw [after0_7]
  unfold out0_7
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  show k0_pay1 (iblk0 V c 2 t) (iblk0 V c 0 t) (iblk0 V c 1 t) (iblk0 V c 3 t) (iblk0 V c 4 t) (iblk0 V c 5 t) (ix2 p q)
    = hiddenArr (V c main_v24) (V c main_arg0) (V c main_v12) (V c main_v25) (V c main_v26) (V c main_v27)
        (((cfg0.win 7).blk t).view.emb (ix2 p q))
  rw [hidden_point, emb0_7]
  rfl

/-- What point t writes back of the projection window is block t of the projection of the hidden function. -/
theorem flushed_proj (c : Dev nD) (t : Fin cfg0.N) :
    (dat0 V c).flushed 8 t = ((cfg0.win 8).blk t).view.read (Elt Ideal)
      (projArr (hiddenArr (V c main_v24) (V c main_arg0) (V c main_v12) (V c main_v25) (V c main_v26) (V c main_v27)) (V c main_v31)) := by
  show (cfg0.win 8).cut (grid0.coords t) ((dat0 V c).after 8 t) = _
  rw [after0_8]
  unfold out0_8
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x16) hz]
  funext j
  obtain ⟨p, q, rfl⟩ : ∃ (p : Fin 5000) (q : Fin 16), j = ix2 p q := ⟨j 0, j 1, eq_ix2 j⟩
  show k0_pay2 (iblk0 V c 2 t) (iblk0 V c 0 t) (iblk0 V c 1 t) (iblk0 V c 3 t) (iblk0 V c 4 t) (iblk0 V c 5 t) (iblk0 V c 6 t) (ix2 p q)
    = projArr (hiddenArr (V c main_v24) (V c main_arg0) (V c main_v12) (V c main_v25) (V c main_v26) (V c main_v27)) (V c main_v31)
        (((cfg0.win 8).blk t).view.emb (ix2 p q))
  rw [Payloads.proj_apply, emb0_8]
  simp only [hidden_point, iblk0_6]
  rfl

/-- An index of the hidden array is in point t's block iff each coordinate is in the block's range. -/
theorem mem_blk0_7 (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v32_0).slice (win0_7.rect t)).set ↔ _
  rw [View.set_slice_whole, Rect.mem_set_unit]
  exact Iff.rfl
theorem mem_blk0_8 (t : Fin cfg0.N) (i : S100000x16.Idx) :
    i ∈ ((cfg0.win 8).blk t).view.set ↔ ∀ a : Fin 2, win0_8.index t a * S5000x16.size a ≤ (i a).val
      ∧ (i a).val < win0_8.index t a * S5000x16.size a + S5000x16.size a := by
  show i ∈ ((View.whole main_v32_1).slice (win0_8.rect t)).set ↔ _
  rw [View.set_slice_whole, Rect.mem_set_unit]
  exact Iff.rfl

/-- The 20 blocks tile the hidden array: row n is in block n / 5000. -/
theorem tiles_hidden (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hlt : (i 0).val / 5000 < cfg0.N := by rw [show cfg0.N = 20 from N_0]; omega
  refine ⟨⟨(i 0).val / 5000, hlt⟩, flush0_7 _, ?_⟩
  rw [mem_blk0_7]
  obtain ⟨-, -, -, -, -, -, -, -, -, -, -, -, -, -, e0, e1, -⟩ := idx_facts0 ⟨(i 0).val / 5000, hlt⟩
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ (1 : Fin 2) * 64 ≤ (i 1).val
      ∧ (i 1).val < win0_7.index ⟨(i 0).val / 5000, hlt⟩ (1 : Fin 2) * 64 + 64
    rw [e1]; omega
theorem tiles_proj (i : S100000x16.Idx) : ∃ t : Fin cfg0.N, (cfg0.win 8).flush t = true ∧ i ∈ ((cfg0.win 8).blk t).view.set := by
  have hi0 : (i 0).val < 100000 := (i 0).isLt
  have hi1 : (i 1).val < 16 := (i 1).isLt
  have hlt : (i 0).val / 5000 < cfg0.N := by rw [show cfg0.N = 20 from N_0]; omega
  refine ⟨⟨(i 0).val / 5000, hlt⟩, flush0_8 _, ?_⟩
  rw [mem_blk0_8]
  obtain ⟨-, -, -, -, -, -, -, -, -, -, -, -, -, -, -, -, e0, e1⟩ := idx_facts0 ⟨(i 0).val / 5000, hlt⟩
  intro a
  match a with
  | ⟨0, _⟩ =>
    show win0_8.index ⟨(i 0).val / 5000, hlt⟩ (0 : Fin 2) * 5000 ≤ (i 0).val
      ∧ (i 0).val < win0_8.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, hlt⟩ (1 : Fin 2) * 16 ≤ (i 1).val
      ∧ (i 1).val < win0_8.index ⟨(i 0).val / 5000, hlt⟩ (1 : Fin 2) * 16 + 16
    rw [e1]; omega

/-- THE HIDDEN ARRAY after the first call. -/
theorem final_hidden (c : Dev nD) : (dat0 V c).arrAt 7 cfg0.N
    = hiddenArr (V c main_v24) (V c main_arg0) (V c main_v12) (V c main_v25) (V c main_v26) (V c main_v27) :=
  (dat0 V c).arrAt_eq_of_cover 7 _ (fun t _ => flushed_hidden V c t) tiles_hidden
/-- THE PROJECTION ARRAY after the first call. -/
theorem final_proj (c : Dev nD) : (dat0 V c).arrAt 8 cfg0.N
    = projArr (hiddenArr (V c main_v24) (V c main_arg0) (V c main_v12) (V c main_v25) (V c main_v26) (V c main_v27)) (V c main_v31) :=
  (dat0 V c).arrAt_eq_of_cover 8 _ (fun t _ => flushed_proj V c t) tiles_proj

/-! ## The second call -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt20_1 (t : Fin cfg1.N) : t.val < 20 := lt_of_lt_of_eq t.isLt N_1
abbrev t20_1 (t : Fin cfg1.N) : Fin 20 := ⟨t.val, lt20_1 t⟩

/-- The summed projections' block read at (p, k). -/
theorem iblk1_0 (c : Dev nD) (t : Fin cfg1.N) (p : Fin 5000) (k : Fin 16) :
    (iblk1 V c 0 t : Vec Ideal S5000x16 .f32) (ix2 p k) = (V c main_v42 : S100000x16.Idx → EReal) (ix2 (row (t20_1 t) p) k) := by
  obtain ⟨e0, e1, -⟩ := idx_facts1 t
  unfold iblk1
  rw [View.read_apply]
  show (V c main_v42 : S100000x16.Idx → EReal) _ = _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 16 + 1 * k.val = k.val; rw [e1]; omega
/-- The hidden features' block read at (p, k). -/
theorem iblk1_1 (c : Dev nD) (t : Fin cfg1.N) (p : Fin 5000) (k : Fin 64) :
    (iblk1 V c 1 t : Vec Ideal S5000x64 .f32) (ix2 p k) = (V c main_v32_0 : S100000x64.Idx → EReal) (ix2 (row (t20_1 t) p) k) := by
  obtain ⟨-, -, e0, e1, -⟩ := idx_facts1 t
  unfold iblk1
  rw [View.read_apply]
  show (V c main_v32_0 : S100000x64.Idx → EReal) _ = _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega
/-- The reciprocal degrees' block read at (p, 0). -/
theorem iblk1_2 (c : Dev nD) (t : Fin cfg1.N) (p : Fin 5000) (u : Fin 1) :
    (iblk1 V c 2 t : Vec Ideal S5000x1 .f32) (ix2 p u) = (V c main_v12 : S100000x1.Idx → EReal) (ix2 (row (t20_1 t) p) u) := by
  obtain ⟨-, -, -, -, e0, e1, -⟩ := idx_facts1 t
  unfold iblk1
  rw [View.read_apply]
  show (V c main_v12 : S100000x1.Idx → EReal) _ = _
  refine congrArg _ (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 1 + 1 * u.val = u.val; rw [e1]; omega
theorem iblk1_3 (c : Dev nD) (t : Fin cfg1.N) (y : S64x2.Idx) :
    (iblk1 V c 3 t : Vec Ideal S64x2 .f32) y = (V c main_v43 : S64x2.Idx → EReal) y := by
  obtain ⟨-, -, -, -, -, -, e0, e1, -⟩ := idx_facts1 t
  unfold iblk1
  rw [View.read_apply]
  show (V c main_v43 : S64x2.Idx → EReal) _ = _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 2 + 1 * (y 1).val = (y 1).val; rw [e1]; omega
theorem iblk1_4 (c : Dev nD) (t : Fin cfg1.N) (y : S1x2.Idx) :
    (iblk1 V c 4 t : Vec Ideal S1x2 .f32) y = (V c main_v44 : S1x2.Idx → EReal) y := by
  obtain ⟨-, -, -, -, -, -, -, -, e0, e1, -⟩ := idx_facts1 t
  unfold iblk1
  rw [View.read_apply]
  show (V c main_v44 : S1x2.Idx → EReal) _ = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 2 + 1 * (y 1).val = (y 1).val; rw [e1]; omega

/-- The layer-2 payload of point t's blocks at (p, j) is the layer-2 function of the arrays at row 5000·t + p. -/
theorem out_point (c : Dev nD) (t : Fin cfg1.N) (p : Fin 5000) (j : Fin 2) :
    k1_pay1 (iblk1 V c 2 t) (iblk1 V c 0 t) (iblk1 V c 1 t) (iblk1 V c 3 t) (iblk1 V c 4 t) (ix2 p j)
      = outAt (V c main_v42) (V c main_v32_0) (V c main_v12) (V c main_v43) (V c main_v44) (row (t20_1 t) p) j := by
  rw [Payloads.out_apply _ _ _ _ _ p j ⟨j.val, by omega⟩ rfl]
  unfold outAt
  simp only [iblk1_0, iblk1_1, iblk1_2, iblk1_3, iblk1_4]

theorem emb1_5 (t : Fin cfg1.N) (p : Fin 5000) (q : Fin 2) :
    ((cfg1.win 5).blk t).view.emb (ix2 p q) = (ix2 (row (t20_1 t) p) q : S100000x2.Idx) := by
  obtain ⟨-, -, -, -, -, -, -, -, -, -, e0, e1⟩ := idx_facts1 t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 2 + 1 * q.val = q.val; rw [e1]; omega

/-- What point t writes back of the result window is block t of the layer-2 function of the arrays. -/
theorem flushed_out (c : Dev nD) (t : Fin cfg1.N) :
    (dat1 V c).flushed 5 t = ((cfg1.win 5).blk t).view.read (Elt Ideal)
      (outArr (V c main_v42) (V c main_v32_0) (V c main_v12) (V c main_v43) (V c main_v44)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S5000x16) hz,
    View.ld_unit_zero (S := S64x2) hz, View.ld_unit_zero (S := S1x2) hz]
  funext j
  obtain ⟨p, q, rfl⟩ : ∃ (p : Fin 5000) (q : Fin 2), j = ix2 p q := ⟨j 0, j 1, eq_ix2 j⟩
  show k1_pay1 (iblk1 V c 2 t) (iblk1 V c 0 t) (iblk1 V c 1 t) (iblk1 V c 3 t) (iblk1 V c 4 t) (ix2 p q)
    = outArr (V c main_v42) (V c main_v32_0) (V c main_v12) (V c main_v43) (V c main_v44)
        (((cfg1.win 5).blk t).view.emb (ix2 p q))
  rw [out_point, emb1_5]
  rfl

theorem mem_blk1_5 (t : Fin cfg1.N) (i : S100000x2.Idx) :
    i ∈ ((cfg1.win 5).blk t).view.set ↔ ∀ a : Fin 2, win1_5.index t a * S5000x2.size a ≤ (i a).val
      ∧ (i a).val < win1_5.index t a * S5000x2.size a + S5000x2.size a := by
  show i ∈ ((View.whole main_v45).slice (win1_5.rect t)).set ↔ _
  rw [View.set_slice_whole, Rect.mem_set_unit]
  exact Iff.rfl

/-- The 20 blocks tile the result array. -/
theorem tiles_out (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  have hlt : (i 0).val / 5000 < cfg1.N := by rw [show cfg1.N = 20 from N_1]; omega
  refine ⟨⟨(i 0).val / 5000, hlt⟩, flush1_5 _, ?_⟩
  rw [mem_blk1_5]
  obtain ⟨-, -, -, -, -, -, -, -, -, -, e0, e1⟩ := idx_facts1 ⟨(i 0).val / 5000, hlt⟩
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 2 ≤ (i 1).val
      ∧ (i 1).val < win1_5.index ⟨(i 0).val / 5000, hlt⟩ (1 : Fin 2) * 2 + 2
    rw [e1]; omega

/-- THE RESULT ARRAY after the second call. -/
theorem final_out (c : Dev nD) : (dat1 V c).arrAt 5 cfg1.N
    = outArr (V c main_v42) (V c main_v32_0) (V c main_v12) (V c main_v43) (V c main_v44) :=
  (dat1 V c).arrAt_eq_of_cover 5 _ (fun t _ => flushed_out V c t) tiles_out

end Cert.KernelIdeal.Regions

end
-- ==== Proof.LibScatterRows.lean ====
/-
  An accumulating scatter of rows read at an index, over the extended reals.

  `x.at[idx].add(upd)` for a table `x : [n, k]`, a column `idx : [m, 1]` of row numbers and updates `upd : [m, k]` (and the
  same for a flat `x : [n]`, `upd : [m]`): update row `e` is added to the table's row `idx[e, 0]`, the word read as a signed
  integer and NOT clamped — a row number outside `[0, n)` drops the update. So entry `(i, c)` of the result is the
  operand's entry plus the sum, over the update rows `e` that land on `i`, of `upd[e, c]`.
-/
import Idealize.ShloMosaic.Lib.ValueIdx
import Idealize.ShloMosaic.PureOps.Ideal.Laws

noncomputable section

namespace Cert.LibScatterRows

open Idealize.ShloMosaic Idealize.ShloMosaic.ValueIdx

/-- Where a row-number word lands on an axis of extent `n`: read signed, not clamped; nowhere when outside. -/
def landing (n : Nat) {w : Nat} (b : BitVec w) : Option (Fin n) :=
  if h : 0 ≤ b.toInt ∧ b.toInt < (n : Int) then some ⟨b.toInt.toNat, by omega⟩ else none

/-- The dimension numbers of a scatter of whole rows into an `[n, k]` table at a column `[m, 1]` of row numbers. -/
abbrev rowsDims (n k m : Nat) (wf : ScatterDims.WF ⟨2, ![n, k]⟩ ⟨2, ![m, 1]⟩ ⟨2, ![m, k]⟩ [1] [0] [0] 1) :
    ScatterDims ⟨2, ![n, k]⟩ ⟨2, ![m, 1]⟩ ⟨2, ![m, k]⟩ where
  updateWindowDims := [1]
  insertedWindowDims := [0]
  scatterDimsToOperandDims := [0]
  indexVectorDim := 1
  wf := wf

/-- The dimension numbers of a scatter of scalars into a flat `[n]` array at a column `[m, 1]` of positions. -/
abbrev flatDims (n m : Nat) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

section rows
variable {n k m w : Nat} (wf : ScatterDims.WF ⟨2, ![n, k]⟩ ⟨2, ![m, 1]⟩ ⟨2, ![m, k]⟩ [1] [0] [0] 1)
  (idx : IVec ⟨2, ![m, 1]⟩ w) (e : Fin m) (c' : Fin k)

/-- On the row axis the window of update `(e, c')` starts at the row number `idx[e, 0]`, read signed. -/
theorem rows_start0 : (rowsDims n k m wf).start (ix2 e c') idx 0 = (idx (ix2 e (0 : Fin 1))).toInt := by
  unfold ScatterDims.start
  rw [dif_pos (show (0 : Fin 2) ∈ (rowsDims n k m wf).scatterDimsToOperandDims from List.mem_singleton.mpr rfl)]
  have hsi : (rowsDims n k m wf).siIdx (ix2 e c') ⟨List.idxOf (0 : Fin 2) (rowsDims n k m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index vector does not name, the window starts at `0`. -/
theorem rows_start1 : (rowsDims n k m wf).start (ix2 e c') idx 1 = 0 := by
  unfold ScatterDims.start
  rw [dif_neg (show (1 : Fin 2) ∉ [(0 : Fin 2)] from by decide)]

/-- The row axis is an inserted window axis: the window coordinate there is `0`. -/
theorem rows_window0 : (rowsDims n k m wf).window (ix2 e c') 0 = 0 := by
  unfold ScatterDims.window
  rw [dif_neg]
  simp [ScatterDims.sKept, Shape.kept, List.mem_filter, List.mem_finRange]

/-- The column axis carries the update's one window axis: the window coordinate there is `c'`. -/
theorem rows_window1 : (rowsDims n k m wf).window (ix2 e c') 1 = c'.val := by
  unfold ScatterDims.window
  rw [dif_pos (by simp [ScatterDims.sKept, Shape.kept, List.mem_filter, List.mem_finRange])]
  rfl

/-- Update `(e, c')` lands on `(i, c)` exactly when its row number lands on `i` and `c' = c`: the result index is
    `(idx[e, 0] + 0, 0 + c')`, defined when the row number is inside `[0, n)` (the column always is). -/
theorem rows_resultIdx_iff (i : Fin n) (c : Fin k) :
    (rowsDims n k m wf).resultIdx? (ix2 e c') idx = some (ix2 i c)
      ↔ landing n (idx (ix2 e (0 : Fin 1))) = some i ∧ c' = c := by
  unfold ScatterDims.resultIdx? landing
  by_cases hb : 0 ≤ (idx (ix2 e (0 : Fin 1))).toInt ∧ (idx (ix2 e (0 : Fin 1))).toInt < (n : Int)
  · have hall : ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro a
      match a with
      | ⟨0, _⟩ =>
        show 0 ≤ (rowsDims n k m wf).start (ix2 e c') idx 0 + (rowsDims n k m wf).window (ix2 e c') 0
          ∧ (rowsDims n k m wf).start (ix2 e c') idx 0 + (rowsDims n k m wf).window (ix2 e c') 0 < (n : Int)
        rw [rows_start0, rows_window0]; omega
      | ⟨1, _⟩ =>
        show 0 ≤ (rowsDims n k m wf).start (ix2 e c') idx 1 + (rowsDims n k m wf).window (ix2 e c') 1
          ∧ (rowsDims n k m wf).start (ix2 e c') idx 1 + (rowsDims n k m wf).window (ix2 e c') 1 < (k : Int)
        rw [rows_start1, rows_window1]; have := c'.isLt; omega
    rw [dif_pos hall, dif_pos hb]
    constructor
    · intro h
      have h := Option.some.inj h
      have h0 := congrArg Fin.val (congrFun h 0)
      have h1 := congrArg Fin.val (congrFun h 1)
      change ((rowsDims n k m wf).start (ix2 e c') idx 0 + (rowsDims n k m wf).window (ix2 e c') 0).toNat = i.val at h0
      change ((rowsDims n k m wf).start (ix2 e c') idx 1 + (rowsDims n k m wf).window (ix2 e c') 1).toNat = c.val at h1
      rw [rows_start0, rows_window0] at h0
      rw [rows_start1, rows_window1] at h1
      refine ⟨congrArg some (Fin.ext ?_), Fin.ext ?_⟩
      · show (idx (ix2 e (0 : Fin 1))).toInt.toNat = i.val
        omega
      · omega
    · rintro ⟨h, hc⟩
      have h := congrArg Fin.val (Option.some.inj h)
      change (idx (ix2 e (0 : Fin 1))).toInt.toNat = i.val at h
      refine congrArg some ?_
      funext a
      refine Fin.ext ?_
      match a with
      | ⟨0, _⟩ =>
        show ((rowsDims n k m wf).start (ix2 e c') idx 0 + (rowsDims n k m wf).window (ix2 e c') 0).toNat = i.val
        rw [rows_start0, rows_window0]; omega
      | ⟨1, _⟩ =>
        show ((rowsDims n k m wf).start (ix2 e c') idx 1 + (rowsDims n k m wf).window (ix2 e c') 1).toNat = c.val
        rw [rows_start1, rows_window1, hc]; omega
  · have hnall : ¬ ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro hall
      have h0 := hall 0
      change 0 ≤ (rowsDims n k m wf).start (ix2 e c') idx 0 + (rowsDims n k m wf).window (ix2 e c') 0
          ∧ (rowsDims n k m wf).start (ix2 e c') idx 0 + (rowsDims n k m wf).window (ix2 e c') 0 < (n : Int) at h0
      rw [rows_start0, rows_window0] at h0
      exact hb (by omega)
    rw [dif_neg hnall, dif_neg hb]
    constructor
    · intro h; cases h
    · rintro ⟨h, _⟩; cases h

end rows

/-- THE ROW SCATTER READ AT `(i, c)`: the operand there plus the updates of the rows that land on `i`, column `c`. -/
theorem scatterAdd_rows_apply {n k m w : Nat} {φ : FTy}
    (wf : ScatterDims.WF ⟨2, ![n, k]⟩ ⟨2, ![m, 1]⟩ ⟨2, ![m, k]⟩ [1] [0] [0] 1)
    (x : FVec Ideal ⟨2, ![n, k]⟩ φ) (idx : IVec ⟨2, ![m, 1]⟩ w) (upd : FVec Ideal ⟨2, ![m, k]⟩ φ) (i : Fin n) (c : Fin k) :
    Host.scatterAdd (rowsDims n k m wf) x idx upd (ix2 i c)
      = x (ix2 i c) + ∑ e ∈ Finset.univ.filter (fun e : Fin m => landing n (idx (ix2 e (0 : Fin 1))) = some i), upd (ix2 e c) := by
  show Ideal.hostScatterAdd (rowsDims n k m wf) x idx upd (ix2 i c) = _
  unfold Ideal.hostScatterAdd
  congr 1
  rw [Finset.sum_filter, sum_idx2, Finset.sum_filter]
  refine Finset.sum_congr rfl fun e _ => ?_
  simp only [rows_resultIdx_iff]
  by_cases hl : landing n (idx (ix2 e (0 : Fin 1))) = some i
  · simp only [hl, true_and, if_true]
    rw [Finset.sum_ite_eq' Finset.univ c (fun c' => upd (ix2 e c'))]
    simp
  · simp only [hl, false_and, if_false]
    exact Finset.sum_const_zero

/-- A rank-1 index set is its one coordinate range, so a sum over it is the sum over the coordinate. -/
theorem sum_idx1 {M : Type*} [AddCommMonoid M] {n0 : Nat} (f : (⟨1, ![n0]⟩ : Shape).Idx → M) :
    ∑ j, f j = ∑ a : Fin n0, f (ix1 a) := by
  let eqv : (⟨1, ![n0]⟩ : Shape).Idx ≃ Fin n0 := ⟨fun j => j 0, ix1, fun j => (eq_ix1 j).symm, fun _ => rfl⟩
  rw [← Equiv.sum_comp eqv.symm f]
  rfl

section flat
variable {n m w : Nat} (wf : ScatterDims.WF ⟨1, ![n]⟩ ⟨2, ![m, 1]⟩ ⟨1, ![m]⟩ [] [0] [0] 1)
  (idx : IVec ⟨2, ![m, 1]⟩ w) (e : Fin m)

/-- The window of update `e` starts at the position `idx[e, 0]`, read signed. -/
theorem flat_start0 : (flatDims n m wf).start (ix1 e) idx 0 = (idx (ix2 e (0 : Fin 1))).toInt := by
  unfold ScatterDims.start
  rw [dif_pos (show (0 : Fin 1) ∈ (flatDims n m wf).scatterDimsToOperandDims from List.mem_singleton.mpr rfl)]
  have hsi : (flatDims n m wf).siIdx (ix1 e) ⟨List.idxOf (0 : Fin 1) (flatDims n m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: the window coordinate there is `0`. -/
theorem flat_window0 : (flatDims n m wf).window (ix1 e) 0 = 0 := by
  unfold ScatterDims.window
  rw [dif_neg]
  simp [ScatterDims.sKept, Shape.kept, List.mem_filter, List.mem_finRange]

/-- Update `e` lands on `i` exactly when its position word lands on `i`. -/
theorem flat_resultIdx_iff (i : Fin n) :
    (flatDims n m wf).resultIdx? (ix1 e) idx = some (ix1 i) ↔ landing n (idx (ix2 e (0 : Fin 1))) = some i := by
  unfold ScatterDims.resultIdx? landing
  by_cases hb : 0 ≤ (idx (ix2 e (0 : Fin 1))).toInt ∧ (idx (ix2 e (0 : Fin 1))).toInt < (n : Int)
  · have hall : ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro a
      match a with
      | ⟨0, _⟩ =>
        show 0 ≤ (flatDims n m wf).start (ix1 e) idx 0 + (flatDims n m wf).window (ix1 e) 0
          ∧ (flatDims n m wf).start (ix1 e) idx 0 + (flatDims n m wf).window (ix1 e) 0 < (n : Int)
        rw [flat_start0, flat_window0]; omega
    rw [dif_pos hall, dif_pos hb]
    constructor
    · intro h
      have h0 := congrArg Fin.val (congrFun (Option.some.inj h) 0)
      change ((flatDims n m wf).start (ix1 e) idx 0 + (flatDims n m wf).window (ix1 e) 0).toNat = i.val at h0
      rw [flat_start0, flat_window0] at h0
      refine congrArg some (Fin.ext ?_)
      show (idx (ix2 e (0 : Fin 1))).toInt.toNat = i.val
      omega
    · intro h
      have h := congrArg Fin.val (Option.some.inj h)
      change (idx (ix2 e (0 : Fin 1))).toInt.toNat = i.val at h
      refine congrArg some ?_
      funext a
      refine Fin.ext ?_
      match a with
      | ⟨0, _⟩ =>
        show ((flatDims n m wf).start (ix1 e) idx 0 + (flatDims n m wf).window (ix1 e) 0).toNat = i.val
        rw [flat_start0, flat_window0]; omega
  · have hnall : ¬ ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro hall
      have h0 := hall 0
      change 0 ≤ (flatDims n m wf).start (ix1 e) idx 0 + (flatDims n m wf).window (ix1 e) 0
          ∧ (flatDims n m wf).start (ix1 e) idx 0 + (flatDims n m wf).window (ix1 e) 0 < (n : Int) at h0
      rw [flat_start0, flat_window0] at h0
      exact hb (by omega)
    rw [dif_neg hnall, dif_neg hb]
    constructor
    · intro h; cases h
    · intro h; cases h

end flat

/-- THE FLAT SCATTER READ AT `i`: the operand there plus the updates that land on `i`. -/
theorem scatterAdd_flat_apply {n m w : Nat} {φ : FTy}
    (wf : ScatterDims.WF ⟨1, ![n]⟩ ⟨2, ![m, 1]⟩ ⟨1, ![m]⟩ [] [0] [0] 1)
    (x : FVec Ideal ⟨1, ![n]⟩ φ) (idx : IVec ⟨2, ![m, 1]⟩ w) (upd : FVec Ideal ⟨1, ![m]⟩ φ) (i : Fin n) :
    Host.scatterAdd (flatDims n m wf) x idx upd (ix1 i)
      = x (ix1 i) + ∑ e ∈ Finset.univ.filter (fun e : Fin m => landing n (idx (ix2 e (0 : Fin 1))) = some i), upd (ix1 e) := by
  show Ideal.hostScatterAdd (flatDims n m wf) x idx upd (ix1 i) = _
  unfold Ideal.hostScatterAdd
  congr 1
  rw [Finset.sum_filter, sum_idx1, Finset.sum_filter]
  refine Finset.sum_congr rfl fun e _ => ?_
  simp only [flat_resultIdx_iff]

end Cert.LibScatterRows

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.LibScaleAcrossSum.lean ====
/-
  Moving a real factor across a finite sum in the extended reals.

  In the extended reals multiplication does not distribute over addition in general: with a = 1, b = −1 and
  s = +∞,  (a + b) · s = 0 · ⊤ = 0  but  a · s + b · s = ⊤ + ⊥ = ⊥. When every summand and the factor are real
  numbers nothing of the kind happens: both sides are the coercion of a real sum. Two lemmas:

  * `coe_sum` — the coercion ℝ → EReal commutes with a finite sum;
  * `sum_mul_scale` — for real xₖ (given as extended reals that are real), real wₖ and a real s,
        (∑ₖ xₖ · wₖ) · s = ∑ₖ xₖ · (wₖ · s):
    scaling a finished contraction is contracting against scaled weights.
-/
import Idealize.ShloMosaic.PureOps.Ideal

namespace Cert.Lib.ScaleAcrossSum

/-- The coercion of the reals into the extended reals commutes with finite sums. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Scaling a finished contraction is contracting against scaled weights, when the activations and the scale
    are real: both sides are the coercion of ∑ₖ xₖ · wₖ · s. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * ((w k : ℝ) : EReal)) * s = ∑ k, x k * (((w k : ℝ) : EReal) * s) := by
  obtain ⟨s', rfl⟩ := hs
  choose x' hx' using hx
  simp only [hx', ← EReal.coe_mul, coe_sum]
  congr 1
  rw [Finset.sum_mul]
  exact Finset.sum_congr rfl fun k _ => by ring

end Cert.Lib.ScaleAcrossSum
-- ==== Proof.MeanLaw.lean ====
/-
  The algebra of mean aggregation on the extended reals.

  A node's degree divisor M = max (number of incoming edges) 1 is a real number ≥ 1. For such M:
  * multiplying by the reciprocal 1/M is dividing by M, for every extended real (the infinities included);
  * mean aggregation is linear: for REAL hidden features h and weights w,
        (Σ_{e ∈ L} Σ_c h (g e) c · w c) · (1/M)  =  Σ_c ((Σ_{e ∈ L} h (g e) c) / M) · w c,
    projecting the neighbours first and averaging after is averaging first and projecting after. This is
    distributivity, which fails at ±∞ on the extended reals (⊤ + ⊥ = ⊥), so it is stated for real entries.
  Real numbers are closed under the operations the first layer is made of, so its output is real when its inputs are.
-/
import Idealize.ShloMosaic.PureOps.Ideal
import Idealize.ShloMosaic.PureOps.Ideal.Laws
import proofs.«115820_j81140522156079_2_alg».proof.Proof.LibScaleAcrossSum

noncomputable section

namespace Cert.Proof.MeanLaw

open Idealize.ShloMosaic Cert.Lib.ScaleAcrossSum

/-- An extended real that is a real number. -/
def IsReal (x : EReal) : Prop := ∃ r : ℝ, x = (r : EReal)

theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (hf : ∀ k ∈ s, IsReal (f k)) : IsReal (∑ k ∈ s, f k) := by
  classical
  induction s using Finset.induction_on with
  | empty => simpa using IsReal.zero
  | insert a s ha ih =>
    rw [Finset.sum_insert ha]
    exact (hf a (Finset.mem_insert_self a s)).add (ih fun k hk => hf k (Finset.mem_insert_of_mem hk))

/-- The word 0x3F800000 denotes the number 1. -/
theorem one_word : Ideal.ofBits .f32 0x3F800000#32 = 1 := by
  simp [Ideal.ofBits, Ideal.ieee, -EReal.coe_mul]; norm_num

/-- The degree divisor: the count of a finite edge set, started from 0 and clamped below at 1, is a real number
    that is not zero. -/
theorem degree_real {ι : Type*} (L : Finset ι) :
    ∃ M : ℝ, M ≠ 0 ∧ max (Ideal.ofBits .f32 0x00000000#32 + ∑ _e ∈ L, Ideal.ofBits .f32 0x3F800000#32)
        (Ideal.ofBits .f32 0x3F800000#32) = (M : EReal) := by
  refine ⟨max (0 + ∑ _e ∈ L, (1 : ℝ)) 1, (lt_of_lt_of_le one_pos (le_max_right _ _)).ne', ?_⟩
  rw [one_word, Ideal.ofBits_zero_f32, ← EReal.coe_one, ← EReal.coe_zero, coe_sum, ← EReal.coe_add]
  rcases le_total (0 + ∑ _e ∈ L, (1 : ℝ)) 1 with h | h
  · rw [max_eq_right h, max_eq_right (EReal.coe_le_coe_iff.2 h)]
  · rw [max_eq_left h, max_eq_left (EReal.coe_le_coe_iff.2 h)]

/-- Multiplying by the reciprocal of a nonzero real is dividing by it, at every extended real. -/
theorem mul_recip (x : EReal) (M : ℝ) (hM : M ≠ 0) :
    x * Ideal.div (Ideal.ofBits .f32 0x3F800000#32) (M : EReal) = Ideal.div x (M : EReal) := by
  rw [one_word, Ideal.div_coe hM, Ideal.div_coe hM, one_mul]

/-- The quotient of a real by a nonzero real is real. -/
theorem IsReal.div {x : EReal} (hx : IsReal x) (M : ℝ) (hM : M ≠ 0) : IsReal (Ideal.div x (M : EReal)) := by
  rw [Ideal.div_coe hM]; exact hx.mul ⟨_, rfl⟩

/-- MEAN AGGREGATION IS LINEAR: the neighbours' projections summed and then scaled by the reciprocal degree equal the
    neighbours' features averaged and then projected, for real features and weights and a nonzero real degree. -/
theorem mean_linear {ι ν : Type*} (L : Finset ι) (g : ι → ν) (h : ν → Fin 64 → EReal) (w : Fin 64 → EReal) (M : ℝ)
    (hh : ∀ n c, IsReal (h n c)) (hw : ∀ c, IsReal (w c)) (hM : M ≠ 0) :
    (Ideal.ofBits .f32 0x00000000#32 + ∑ e ∈ L, ∑ c : Fin 64, h (g e) c * w c)
        * Ideal.div (Ideal.ofBits .f32 0x3F800000#32) (M : EReal)
      = ∑ c : Fin 64, Ideal.div (Ideal.ofBits .f32 0x00000000#32 + ∑ e ∈ L, h (g e) c) (M : EReal) * w c := by
  choose h' hh' using hh
  choose w' hw' using hw
  rw [mul_recip _ M hM]
  simp only [Ideal.div_coe hM, Ideal.ofBits_zero_f32, zero_add, hh', hw', ← EReal.coe_mul, coe_sum]
  congr 1
  rw [Finset.sum_comm, Finset.sum_mul]
  refine Finset.sum_congr rfl fun c _ => ?_
  rw [← Finset.sum_mul]
  ring

end Cert.Proof.MeanLaw

end
-- ==== Proof.Spec.lean ====
/-
  The two programs as formulas, and why they agree.

  A graph on 100000 nodes is given by two columns of 1000000 words: edge e goes from node `src e` (its source word
  read signed and clamped into the table, as a gather reads it) into node i when its destination word, read signed,
  is i (as a scatter reads it: an edge whose word is outside the table lands nowhere). `into i` is the set of edges
  into i, `deg i = max (|into i|) 1`, and `nbrSum T i k = Σ_{e ∈ into i} T (src e, k)`.

  Both programs are two layers of "mean of the neighbours' features times one weight matrix, plus the node's own
  features times another, plus a bias", the first layer clamped below at 0. They differ in two places:
  * the kernel multiplies a sum by the reciprocal 1/deg where the reference divides by deg — the same extended real,
    because deg is a real number ≥ 1 (`hid_eq`);
  * in the second layer the kernel projects every node's hidden features by the weight matrix FIRST and then sums the
    projections over the neighbours, where the reference sums the hidden features and projects after — equal because
    the hidden features and the weights are real numbers, so that sums distribute (`out_eq`).
-/
import Idealize.ShloMosaic.Lib.ValueIdx
import Idealize.ShloMosaic.PureOps.Ideal.Laws
import proofs.«115820_j81140522156079_2_alg».proof.Proof.LibScatterRows
import proofs.«115820_j81140522156079_2_alg».proof.Proof.LibRowGather
import proofs.«115820_j81140522156079_2_alg».proof.Proof.MeanLaw

noncomputable section

namespace Cert.Proof.Spec

open Idealize.ShloMosaic Idealize.ShloMosaic.ValueIdx Cert.Proof.MeanLaw
open Cert.LibScatterRows (landing)
open Cert.LibRowGather (rowOf)

/-- The words of the float constants 0 and 1. -/
abbrev zw : EReal := Ideal.ofBits .f32 0x00000000#32
abbrev ow : EReal := Ideal.ofBits .f32 0x3F800000#32

section graph
variable (dcol scol : IVec (⟨2, ![1000000, 1]⟩ : Shape) 32)

/-- The edges into node i. -/
def into (i : Fin 100000) : Finset (Fin 1000000) :=
  Finset.univ.filter fun e : Fin 1000000 => landing 100000 (dcol (ix2 e (0 : Fin 1))) = some i
/-- The node edge e comes from. -/
def src (e : Fin 1000000) : Fin 100000 := rowOf 100000 (by decide) scol e
/-- The degree divisor of node i. -/
def deg (i : Fin 100000) : EReal := max (zw + ∑ _e ∈ into dcol i, ow) ow
/-- Column k of a table summed over the sources of the edges into i. -/
def nbrSum {D : Nat} (T : (⟨2, ![100000, D]⟩ : Shape).Idx → EReal) (i : Fin 100000) (k : Fin D) : EReal :=
  zw + ∑ e ∈ into dcol i, T (ix2 (src scol e) k)

variable (x : (⟨2, ![100000, 64]⟩ : Shape).Idx → EReal) (W1l W1r : (⟨2, ![64, 64]⟩ : Shape).Idx → EReal)
  (b1 : (⟨1, ![64]⟩ : Shape).Idx → EReal)

/-- The first layer as the reference computes it. -/
def hidR (i : Fin 100000) (q : Fin 64) : EReal :=
  max ((∑ k : Fin 64, Ideal.div (nbrSum dcol scol x i k) (deg dcol i) * W1l (ix2 q k))
        + (∑ k : Fin 64, x (ix2 i k) * W1r (ix2 q k)) + b1 (ix1 q)) zw
/-- The first layer as the kernel computes it. -/
def hidK (i : Fin 100000) (q : Fin 64) : EReal :=
  max ((∑ k : Fin 64, (nbrSum dcol scol x i k * Ideal.div ow (deg dcol i)) * W1l (ix2 q k))
        + (∑ k : Fin 64, x (ix2 i k) * W1r (ix2 q k)) + b1 (ix1 q)) 0

theorem deg_real (i : Fin 100000) : ∃ M : ℝ, M ≠ 0 ∧ deg dcol i = (M : EReal) := degree_real (into dcol i)

/-- The two first layers are one function: multiplying by 1/deg is dividing by deg. -/
theorem hid_eq (i : Fin 100000) (q : Fin 64) : hidK dcol scol x W1l W1r b1 i q = hidR dcol scol x W1l W1r b1 i q := by
  obtain ⟨M, hM, hd⟩ := deg_real dcol i
  unfold hidK hidR
  rw [hd]
  simp only [mul_recip _ M hM]
  rw [← Ideal.ofBits_zero_f32]

/-- With real features, weights and bias the first layer's output is real. -/
theorem hid_real (hx : ∀ j, IsReal (x j)) (hl : ∀ j, IsReal (W1l j)) (hr : ∀ j, IsReal (W1r j)) (hb : ∀ j, IsReal (b1 j))
    (i : Fin 100000) (q : Fin 64) : IsReal (hidR dcol scol x W1l W1r b1 i q) := by
  obtain ⟨M, hM, hd⟩ := deg_real dcol i
  have hz : IsReal zw := ⟨0, Ideal.ofBits_zero_f32⟩
  unfold hidR nbrSum
  rw [hd]
  refine IsReal.max (((IsReal.sum _ _ fun k _ => ?_).add (IsReal.sum _ _ fun k _ => (hx _).mul (hr _))).add (hb _)) hz
  exact (IsReal.div (hz.add (IsReal.sum _ _ fun e _ => hx _)) M hM).mul (hl _)

variable (H : (⟨2, ![100000, 64]⟩ : Shape).Idx → EReal) (W2l W2r : (⟨2, ![2, 64]⟩ : Shape).Idx → EReal)
  (b2 : (⟨1, ![2]⟩ : Shape).Idx → EReal)

/-- The second layer as the reference computes it from hidden features H. -/
def outR (i : Fin 100000) (j : Fin 2) : EReal :=
  (∑ c : Fin 64, Ideal.div (nbrSum dcol scol H i c) (deg dcol i) * W2l (ix2 j c))
    + (∑ c : Fin 64, H (ix2 i c) * W2r (ix2 j c)) + b2 (ix1 j)
/-- The second layer as the kernel computes it from hidden features H: the projections summed, then scaled. -/
def outK (i : Fin 100000) (j : Fin 2) : EReal :=
  ((∑ c : Fin 64, H (ix2 i c) * W2r (ix2 j c))
      + (zw + ∑ e ∈ into dcol i, ∑ c : Fin 64, H (ix2 (src scol e) c) * W2l (ix2 j c)) * Ideal.div ow (deg dcol i))
    + b2 (ix1 j)

/-- The two second layers agree on real hidden features and weights. -/
theorem out_eq (hH : ∀ j, IsReal (H j)) (hl : ∀ j, IsReal (W2l j)) (i : Fin 100000) (j : Fin 2) :
    outK dcol scol H W2l W2r b2 i j = outR dcol scol H W2l W2r b2 i j := by
  obtain ⟨M, hM, hd⟩ := deg_real dcol i
  unfold outK outR nbrSum
  rw [hd, mean_linear (into dcol i) (src scol) (fun n c => H (ix2 n c)) (fun c => W2l (ix2 j c)) M
    (fun n c => hH _) (fun c => hl _) hM]
  exact congrArg (· + b2 (ix1 j)) (add_comm _ _)

end graph

end Cert.Proof.Spec

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibScatterSet.lean ====
/-
  Reading a replacing scatter at an index.

  A scatter whose body returns the update (`x.at[idx].set(upd)`) is a left fold, over the update indices in
  row-major order, of the step "overwrite the element the update lands on, when it lands inside".  When
  every update lands inside and no two updates land on the same element, the order of the fold does not
  matter: an element some update lands on holds that update, every other element holds the operand's.
  The two facts are first proved for a fold of such overwriting steps over an arbitrary list, then
  specialised to the row-major list of update indices.
-/
import Idealize.ShloMosaic.PureOps.ShapeOps

namespace Idealize.ShloMosaic.ScatterSet

section Fold
variable {ι β α : Type} [DecidableEq β]

/-- One overwriting step: item `n` lands on `land n` (or nowhere) and carries the value `val n`; the
    step replaces the element it lands on and keeps every other element. -/
def step (land : ι → Option β) (val : ι → α) (r : β → α) (n : ι) : β → α :=
  match land n with
  | some i => fun i' => if i' = i then val n else r i'
  | none => r

/-- A step whose item does not land on `i` keeps the element at `i`. -/
theorem step_of_ne (land : ι → Option β) (val : ι → α) (r : β → α) (n : ι) (i : β) (h : land n ≠ some i) :
    step land val r n i = r i := by
  unfold step
  cases hn : land n with
  | none => rfl
  | some k =>
    have hik : i ≠ k := fun e => h (by rw [hn, e])
    exact if_neg hik

/-- A step whose item lands on `i` leaves the item's value at `i`. -/
theorem step_of_eq (land : ι → Option β) (val : ι → α) (r : β → α) (n : ι) (i : β) (h : land n = some i) :
    step land val r n i = val n := by
  unfold step
  rw [h]
  exact if_pos rfl

/-- If no item of the list lands on `i`, folding the steps over the list keeps the element at `i`. -/
theorem foldl_step_miss (land : ι → Option β) (val : ι → α) (i : β) :
    ∀ (l : List ι) (r : β → α), (∀ n ∈ l, land n ≠ some i) → l.foldl (step land val) r i = r i
  | [], _, _ => rfl
  | n :: l, r, h => by
    rw [List.foldl_cons, foldl_step_miss land val i l _ fun m hm => h m (List.mem_cons_of_mem _ hm)]
    exact step_of_ne land val r n i (h n List.mem_cons_self)

/-- If the list has no repeated item, `n0` is in it and lands on `i`, and no other item of the list lands on
    `i`, then after folding the steps over the list the element at `i` is the value `n0` carries. -/
theorem foldl_step_hit (land : ι → Option β) (val : ι → α) (i : β) (n0 : ι) (h0 : land n0 = some i) :
    ∀ (l : List ι) (r : β → α), l.Nodup → n0 ∈ l → (∀ n ∈ l, land n = some i → n = n0) →
      l.foldl (step land val) r i = val n0
  | [], _, _, hm, _ => absurd hm List.not_mem_nil
  | n :: l, r, hnd, hm, huniq => by
    rw [List.foldl_cons]
    have hnd' := List.nodup_cons.1 hnd
    by_cases hn : n = n0
    · subst hn
      rw [foldl_step_miss land val i l _ fun m hml e => hnd'.1 (huniq m (List.mem_cons_of_mem _ hml) e ▸ hml)]
      exact step_of_eq land val r n i h0
    · have hm' : n0 ∈ l := by
        rcases List.mem_cons.1 hm with e | e
        · exact absurd e.symm hn
        · exact e
      exact foldl_step_hit land val i n0 h0 l _ hnd'.2 hm' fun m hml => huniq m (List.mem_cons_of_mem _ hml)

end Fold

section Scatter
variable {s si u : Shape} {α : Type} {w : Nat}

/-- The replacing scatter is the fold of overwriting steps over the update indices in row-major order,
    item `n` landing where `resultIdx?` sends the `n`-th update index and carrying that update. -/
theorem scatter_set_eq_foldl (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  refine congrArg (fun f => List.foldl f x (List.finRange u.numel)) ?_
  funext r n
  unfold step
  beta_reduce
  generalize d.resultIdx? (u.rowMajor.symm n) idx = o
  cases o <;> rfl

/-- An element no update lands on keeps the operand's value. -/
theorem scatter_set_of_forall_ne (d : ScatterDims s si u) (x : s.Idx → α) (idx : IVec si w) (upd : u.Idx → α)
    (i : s.Idx) (h : ∀ j, d.resultIdx? j idx ≠ some i) : Host.scatter d (fun _ b => b) x idx upd i = x i := by
  rw [scatter_set_eq_foldl]
  exact foldl_step_miss _ _ i _ x fun n _ => h _

/-- When update index `j` lands on `i` and is the only update index that does, the element at `i` is
    the update at `j`. -/
theorem scatter_set_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_set_eq_foldl]
  have e := foldl_step_hit (fun n => d.resultIdx? (u.rowMajor.symm n) idx) (fun n => upd (u.rowMajor.symm n)) i
    (u.rowMajor j) (by simpa using hj) (List.finRange u.numel) x (List.nodup_finRange _) (List.mem_finRange _)
    (fun n _ hn => by
      have := huniq _ hn
      rw [← this]; simp)
  simpa using e

/-- Every update lands inside, update index `j` on `g j`, and `g` is injective: the element at `g j` is
    the update at `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j :=
  scatter_set_of_unique d x idx upd (g j) j (hg j) fun j' hj' => hinj (Option.some.inj ((hg j').symm.trans hj'))

/-- Every update lands inside, update index `j` on `g j`: an element that is no `g j` keeps the
    operand's value. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i :=
  scatter_set_of_forall_ne d x idx upd i fun j e => hi j (Option.some.inj ((hg j).symm.trans e))

end Scatter

end Idealize.ShloMosaic.ScatterSet
-- ==== Proof.LibColumnWindowSet.lean ====
/-
  A block of columns written into a matrix, read at an index.

  `x.at[:, 0:b].set(u)` for an [a, n] matrix x and an [a, b] block u (b ≤ n) prints as a replacing scatter
  with ONE start index (an index vector of one word, naming the column axis) whose window is the whole
  block. When that word is 0 every entry (p, q) of the block lands on entry (p, q) of the matrix, no two on the
  same one, so the result read inside the block's columns is the block:
      result (p, q) = u (p, q)   for q < b.
-/
import Idealize.ShloMosaic.Lib.ValueIdx
import Idealize.ShloMosaic.PureOps.ShapeOps
import proofs.«115820_j81140522156079_2_alg».proof.Proof.LibScatterSet

noncomputable section

namespace Cert.Lib.ColumnWindowSet

open Idealize.ShloMosaic Idealize.ShloMosaic.ValueIdx

/-- The dimension numbers of a whole [a, b] block written into an [a, n] matrix at one start index naming the
    column axis. -/
abbrev colWindowDims (a n b : Nat) (wf : ScatterDims.WF ⟨2, ![a, n]⟩ ⟨1, ![1]⟩ ⟨2, ![a, b]⟩ [0, 1] [] [1] 0) :
    ScatterDims ⟨2, ![a, n]⟩ ⟨1, ![1]⟩ ⟨2, ![a, b]⟩ where
  updateWindowDims := [0, 1]
  insertedWindowDims := []
  scatterDimsToOperandDims := [1]
  indexVectorDim := 0
  wf := wf

section
variable {a n b w : Nat} (wf : ScatterDims.WF ⟨2, ![a, n]⟩ ⟨1, ![1]⟩ ⟨2, ![a, b]⟩ [0, 1] [] [1] 0)
  (idx : IVec ⟨1, ![1]⟩ w) (h0 : ∀ k, (idx k).toInt = 0) (j : (⟨2, ![a, b]⟩ : Shape).Idx)

/-- The row axis is not named by the start index: the window starts at row 0. -/
theorem start0 : (colWindowDims a n b wf).start j idx 0 = 0 := by
  unfold ScatterDims.start
  rw [dif_neg (show (0 : Fin 2) ∉ [(1 : Fin 2)] from by decide)]

include h0 in
/-- The start word is 0: the window starts at column 0. -/
theorem start1 : (colWindowDims a n b wf).start j idx 1 = 0 := by
  unfold ScatterDims.start
  rw [dif_pos (show (1 : Fin 2) ∈ (colWindowDims a n b wf).scatterDimsToOperandDims from List.mem_singleton.mpr rfl)]
  exact h0 _

/-- Both axes are window axes: the window coordinates are the block's own. -/
theorem window0 : (colWindowDims a n b wf).window j 0 = (j 0).val := by
  unfold ScatterDims.window
  rw [dif_pos (by simp [ScatterDims.sKept, Shape.kept, List.mem_filter, List.mem_finRange])]
  rfl
theorem window1 : (colWindowDims a n b wf).window j 1 = (j 1).val := by
  unfold ScatterDims.window
  rw [dif_pos (by simp [ScatterDims.sKept, Shape.kept, List.mem_filter, List.mem_finRange])]
  rfl

/-- Where a block entry lands in the matrix: the same row, the same column number. -/
def place (hb : b ≤ n) (j : (⟨2, ![a, b]⟩ : Shape).Idx) : (⟨2, ![a, n]⟩ : Shape).Idx :=
  ix2 (⟨(j 0).val, (j 0).isLt⟩ : Fin a) (⟨(j 1).val, lt_of_lt_of_le (j 1).isLt hb⟩ : Fin n)

include h0 in
/-- Block entry j lands on `place j`. -/
theorem resultIdx_eq (hb : b ≤ n) : (colWindowDims a n b wf).resultIdx? j idx = some (place hb j) := by
  have hj0 : (j 0).val < a := (j 0).isLt
  have hj1 : (j 1).val < b := (j 1).isLt
  unfold ScatterDims.resultIdx?
  have hall : ∀ c : Fin 2, 0 ≤ (colWindowDims a n b wf).start j idx c + (colWindowDims a n b wf).window j c
      ∧ (colWindowDims a n b wf).start j idx c + (colWindowDims a n b wf).window j c
          < ((⟨2, ![a, n]⟩ : Shape).size c : Int) := by
    intro c
    match c with
    | ⟨0, _⟩ =>
      show 0 ≤ (colWindowDims a n b wf).start j idx 0 + (colWindowDims a n b wf).window j 0
        ∧ (colWindowDims a n b wf).start j idx 0 + (colWindowDims a n b wf).window j 0 < (a : Int)
      rw [start0, window0]; omega
    | ⟨1, _⟩ =>
      show 0 ≤ (colWindowDims a n b wf).start j idx 1 + (colWindowDims a n b wf).window j 1
        ∧ (colWindowDims a n b wf).start j idx 1 + (colWindowDims a n b wf).window j 1 < (n : Int)
      rw [start1 wf idx h0, window1]; omega
  rw [dif_pos hall]
  refine congrArg some (funext fun c => Fin.ext ?_)
  match c with
  | ⟨0, _⟩ =>
    show ((colWindowDims a n b wf).start j idx 0 + (colWindowDims a n b wf).window j 0).toNat = (j 0).val
    rw [start0, window0]; omega
  | ⟨1, _⟩ =>
    show ((colWindowDims a n b wf).start j idx 1 + (colWindowDims a n b wf).window j 1).toNat = (j 1).val
    rw [start1 wf idx h0, window1]; omega

theorem place_injective (hb : b ≤ n) : Function.Injective (place (a := a) (n := n) hb) := by
  intro j j' h
  have e0 := congrArg Fin.val (congrFun h 0)
  have e1 := congrArg Fin.val (congrFun h 1)
  funext c
  refine Fin.ext ?_
  match c with
  | ⟨0, _⟩ => exact e0
  | ⟨1, _⟩ => exact e1
end

/-- THE BLOCK READ BACK: inside the block's columns the result of the write is the block. -/
theorem colWindow_set_apply {α : Type} {a n b w : Nat} (wf : ScatterDims.WF ⟨2, ![a, n]⟩ ⟨1, ![1]⟩ ⟨2, ![a, b]⟩ [0, 1] [] [1] 0)
    (hb : b ≤ n) (x : (⟨2, ![a, n]⟩ : Shape).Idx → α) (idx : IVec ⟨1, ![1]⟩ w) (h0 : ∀ k, (idx k).toInt = 0)
    (upd : (⟨2, ![a, b]⟩ : Shape).Idx → α) (p : Fin a) (q : Fin b) (q' : Fin n) (hq : q'.val = q.val) :
    Host.scatter (colWindowDims a n b wf) (fun _ v => v) x idx upd (ix2 p q') = upd (ix2 p q) := by
  have e : (ix2 p q' : (⟨2, ![a, n]⟩ : Shape).Idx) = place hb (ix2 p q) := by
    funext c
    refine Fin.ext ?_
    match c with
    | ⟨0, _⟩ => rfl
    | ⟨1, _⟩ => exact hq
  rw [e]
  exact Idealize.ShloMosaic.ScatterSet.scatter_set_hit (colWindowDims a n b wf) x idx upd (place hb)
    (fun j => resultIdx_eq wf idx h0 j hb) (place_injective hb) (ix2 p q)

end Cert.Lib.ColumnWindowSet

end
-- ==== Proof.KernelHost.lean ====
/-
  The arrays the two pallas_calls are entered with, as terms of the argument arrays.

  Before the first call @main computes, from the edge list a1 (two rows of 1000000 words): the destination column
  (row 1), the source column (row 0, a negative word moved up by the table's height), the degree count (ones
  scattered onto the destinations), its clamped reciprocal as a column, and the neighbour sums of the features
  (rows gathered at the sources, scattered onto the destinations); it transposes the two weight matrices, makes
  the bias a row, and writes the transposed 2×64 projection weights into the first two columns of a zero 64×16
  matrix. Between the calls it gathers and scatters the projected rows the same way, transposes the last weight
  matrix and makes the last bias a row.
-/
import proofs.«115820_j81140522156079_2_alg».proof.Proof.Gen.KernelIdeal.Frame
import proofs.«115820_j81140522156079_2_alg».proof.Proof.KernelRegions
import proofs.«115820_j81140522156079_2_alg».proof.Proof.Spec
import proofs.«115820_j81140522156079_2_alg».proof.Proof.LibKeepdimsColumn
import proofs.«115820_j81140522156079_2_alg».proof.Proof.LibColumnWindowSet
import Idealize.ShloMosaic.PureOps.Ideal
import Idealize.ShloMosaic.PureOps.Ideal.Laws
import Idealize.ShloMosaic.Lib.StableHlo.Run
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

/-! ## The index columns -/

/-- Row 1 of the edge list: the destination words. -/
def dstWords (a1 : IVec S2x1000000 32) : IVec S1000000 32 := fun i =>
  shapeCast S1000000 (extractStridedSlice S1x1000000 ![1, 0] a1 slices_S2x1000000_S1x1000000_1_0) shapeCasts_S1x1000000_S1000000 i
/-- Row 0 of the edge list: the source words. -/
def srcWords (a1 : IVec S2x1000000 32) : IVec S1000000 32 := fun i =>
  shapeCast S1000000 (extractStridedSlice S1x1000000 ![0, 0] a1 slices_S2x1000000_S1x1000000_0_0) shapeCasts_S1x1000000_S1000000 i
/-- The destination words as a column. -/
def dstCol (a1 : IVec S2x1000000 32) : IVec S1000000x1 32 :=
  broadcastInDim S1000000x1 ![0] bcast_S1000000_S1000000x1_0 (dstWords a1)
/-- The source words, a negative one moved up by 100000, as a column. -/
def srcCol (a1 : IVec S2x1000000 32) : IVec S1000000x1 32 :=
  broadcastInDim S1000000x1 ![0] bcast_S1000000_S1000000x1_0
    (select (cmpi CmpIPredicate.slt (srcWords a1) (broadcastInDim S1000000 ![] bcast_S_S1000000 (constantI S_ 32 0#32)))
      (addi (srcWords a1) (broadcastInDim S1000000 ![] bcast_S_S1000000 (constantI S_ 32 100000#32)))
      (srcWords a1))

variable (m : (ℓ : Loc nD τ sig) → Buf (Elt Ideal) ℓ) (ρ : Dev nD → PrngReg)

/-- The argument arrays as launched. -/
abbrev a0 (c : Dev nD) : S100000x64.Idx → EReal := m ((c : Thread nD τ).loc main_arg0)
abbrev a1 (c : Dev nD) : IVec S2x1000000 32 := m ((c : Thread nD τ).loc main_arg1)
abbrev a2 (c : Dev nD) : S64x64.Idx → EReal := m ((c : Thread nD τ).loc main_arg2)
abbrev a3 (c : Dev nD) : S64.Idx → EReal := m ((c : Thread nD τ).loc main_arg3)
abbrev a4 (c : Dev nD) : S64x64.Idx → EReal := m ((c : Thread nD τ).loc main_arg4)
abbrev a5 (c : Dev nD) : S2x64.Idx → EReal := m ((c : Thread nD τ).loc main_arg5)
abbrev a6 (c : Dev nD) : S2.Idx → EReal := m ((c : Thread nD τ).loc main_arg6)
abbrev a7 (c : Dev nD) : S2x64.Idx → EReal := m ((c : Thread nD τ).loc main_arg7)

/-! ## The first call's operands -/

theorem arr_v24 (c : Dev nD) : (V1 m ρ c main_v24 : S100000x64.Idx → EReal)
    = Host.scatterAdd scatter_S100000x64_S1000000x1_S1000000x64_1_0_0_1
        (broadcastInDim S100000x64 ![] bcast_S_S100000x64 (constant (F := Ideal) S_ .f32 0x00000000#32))
        (dstCol (a1 m c))
        (extf .f32 (Host.gather gather_S100000x64_S1000000x1_S1000000x64_1_0_n_n_0_1_164
          (truncf .bf16 (a0 m c) bitsLt_bf16_f32) (srcCol (a1 m c))) bitsLt_bf16_f32) := by
  show StableHlo.after hostOps0 (W0 m ρ c) (Proc.devRef .tc main_v24) = _
  after_results_simp
  rfl

theorem arr_v12 (c : Dev nD) : (V1 m ρ c main_v12 : S100000x1.Idx → EReal)
    = shapeCast S100000x1
        (Host.divf (broadcastInDim S100000 ![] bcast_S_S100000 (constant (F := Ideal) S_ .f32 0x3F800000#32))
          (maximumf
            (Host.scatterAdd scatter_S100000_S1000000x1_S1000000_n_0_0_1
              (broadcastInDim S100000 ![] bcast_S_S100000 (constant (F := Ideal) S_ .f32 0x00000000#32))
              (dstCol (a1 m c))
              (broadcastInDim S1000000 ![] bcast_S_S1000000 (constant (F := Ideal) S_ .f32 0x3F800000#32)))
            (broadcastInDim S100000 ![] bcast_S_S100000 (constant (F := Ideal) S_ .f32 0x3F800000#32))))
        shapeCasts_S100000_S100000x1 := by
  show StableHlo.after hostOps0 (W0 m ρ c) (Proc.devRef .tc main_v12) = _
  after_results_simp
  rfl

theorem arr_arg0 (c : Dev nD) : (V1 m ρ c main_arg0 : S100000x64.Idx → EReal) = a0 m c := by
  show StableHlo.after hostOps0 (W0 m ρ c) (Proc.devRef .tc main_arg0) = _
  after_results_simp

theorem arr_v25 (c : Dev nD) : (V1 m ρ c main_v25 : S64x64.Idx → EReal)
    = transpose S64x64 [1, 0] (a2 m c) transposes_S64x64_S64x64_1_0 := by
  show StableHlo.after hostOps0 (W0 m ρ c) (Proc.devRef .tc main_v25) = _
  after_results_simp
theorem arr_v26 (c : Dev nD) : (V1 m ρ c main_v26 : S64x64.Idx → EReal)
    = transpose S64x64 [1, 0] (a4 m c) transposes_S64x64_S64x64_1_0 := by
  show StableHlo.after hostOps0 (W0 m ρ c) (Proc.devRef .tc main_v26) = _
  after_results_simp
theorem arr_v27 (c : Dev nD) : (V1 m ρ c main_v27 : S1x64.Idx → EReal)
    = shapeCast S1x64 (a3 m c) shapeCasts_S64_S1x64 := by
  show StableHlo.after hostOps0 (W0 m ρ c) (Proc.devRef .tc main_v27) = _
  after_results_simp
  rfl
theorem arr_v31 (c : Dev nD) : (V1 m ρ c main_v31 : S64x16.Idx → EReal)
    = Host.scatter scatter_S64x16_S1_S64x2_01_n_1_0 (fun _ b => b)
        (broadcastInDim S64x16 ![] bcast_S_S64x16 (constant (F := Ideal) S_ .f32 0x00000000#32))
        (broadcastInDim S1 ![] bcast_S_S1 (constantI S_ 32 0#32))
        (transpose S64x2 [1, 0] (a5 m c) transposes_S2x64_S64x2_1_0) := by
  show StableHlo.after hostOps0 (W0 m ρ c) (Proc.devRef .tc main_v31) = _
  after_results_simp

/-- The word rows are still there after the first call: it writes neither. -/
theorem arr_v3 (c : Dev nD) : (W2 m ρ c (Proc.devRef .tc main_v3) : S1000000.Idx → BitVec 32) = dstWords (a1 m c) := by
  rw [W2_of_ne m ρ c main_v3 (by decide)]
  show StableHlo.after hostOps0 (W0 m ρ c) (Proc.devRef .tc main_v3) = _
  after_results_simp
  rfl
theorem arr_v1 (c : Dev nD) : (W2 m ρ c (Proc.devRef .tc main_v1) : S1000000.Idx → BitVec 32) = srcWords (a1 m c) := by
  rw [W2_of_ne m ρ c main_v1 (by decide)]
  show StableHlo.after hostOps0 (W0 m ρ c) (Proc.devRef .tc main_v1) = _
  after_results_simp
  rfl
theorem arr_arg7 (c : Dev nD) : (W2 m ρ c (Proc.devRef .tc main_arg7) : S2x64.Idx → EReal) = a7 m c := by
  rw [W2_of_ne m ρ c main_arg7 (by decide)]
  show StableHlo.after hostOps0 (W0 m ρ c) (Proc.devRef .tc main_arg7) = _
  after_results_simp
theorem arr_arg6 (c : Dev nD) : (W2 m ρ c (Proc.devRef .tc main_arg6) : S2.Idx → EReal) = a6 m c := by
  rw [W2_of_ne m ρ c main_arg6 (by decide)]
  show StableHlo.after hostOps0 (W0 m ρ c) (Proc.devRef .tc main_arg6) = _
  after_results_simp

/-! ## The second call's operands -/

theorem arr_v42 (c : Dev nD) : (V3 m ρ c main_v42 : S100000x16.Idx → EReal)
    = Host.scatterAdd scatter_S100000x16_S1000000x1_S1000000x16_1_0_0_1
        (broadcastInDim S100000x16 ![] bcast_S_S100000x16 (constant (F := Ideal) S_ .f32 0x00000000#32))
        (dstCol (a1 m c))
        (Host.gather gather_S100000x16_S1000000x1_S1000000x16_1_0_n_n_0_1_116
          (W2 m ρ c (Proc.devRef .tc main_v32_1) : S100000x16.Idx → EReal) (srcCol (a1 m c))) := by
  show StableHlo.after hostOps1 (W2 m ρ c) (Proc.devRef .tc main_v42) = _
  after_results
  rw [arr_v3, arr_v1]
  rfl
theorem arr_v43 (c : Dev nD) : (V3 m ρ c main_v43 : S64x2.Idx → EReal)
    = transpose S64x2 [1, 0] (a7 m c) transposes_S2x64_S64x2_1_0 := by
  show StableHlo.after hostOps1 (W2 m ρ c) (Proc.devRef .tc main_v43) = _
  after_results
  rw [arr_arg7]
theorem arr_v44 (c : Dev nD) : (V3 m ρ c main_v44 : S1x2.Idx → EReal)
    = shapeCast S1x2 (a6 m c) shapeCasts_S2_S1x2 := by
  show StableHlo.after hostOps1 (W2 m ρ c) (Proc.devRef .tc main_v44) = _
  after_results
  rw [arr_arg6]
  rfl
theorem arr_v32_0 (c : Dev nD) : (V3 m ρ c main_v32_0 : S100000x64.Idx → EReal) = (dat0 (V1 m ρ) c).arrAt 7 cfg0.N := by
  show StableHlo.after hostOps1 (W2 m ρ c) (Proc.devRef .tc main_v32_0) = _
  after_results
  exact W2_arr m ρ c 7
theorem arr_v12' (c : Dev nD) : (V3 m ρ c main_v12 : S100000x1.Idx → EReal) = (V1 m ρ c main_v12 : S100000x1.Idx → EReal) := by
  show StableHlo.after hostOps1 (W2 m ρ c) (Proc.devRef .tc main_v12) = _
  after_results
  exact (W2_arr m ρ c 2).trans (((dat0 (V1 m ρ) c).arrAt_in 2 rfl _).trans (A_eq0 (V1 m ρ) c 2))
theorem arr_v32_1 (c : Dev nD) : (W2 m ρ c (Proc.devRef .tc main_v32_1) : S100000x16.Idx → EReal) = (dat0 (V1 m ρ) c).arrAt 8 cfg0.N :=
  W2_arr m ρ c 8

/-! ## The operands read at an index, in the specification's words -/

open Cert.Proof.Spec Cert.LibScatterRows Cert.LibRowGather

/-- The host's quotient at an index. -/
theorem hostDivf_apply {s : Shape} {φ : FTy} (x y : FVec Ideal s φ) (i : s.Idx) : Host.divf x y i = Ideal.div (x i) (y i) := rfl
/-- A scalar constant broadcast to a shape reads its word everywhere. -/
theorem bcast_const_apply {s : Shape} (h : S_.BroadcastsInDim s (![] : Fin 0 → Fin s.rank)) (w : BitVec 32) (i : s.Idx) :
    broadcastInDim s ![] h (constant (F := Ideal) S_ .f32 w) i = Ideal.ofBits .f32 w := rfl

/-- The neighbour sums of the features. -/
theorem v24_apply (c : Dev nD) (i : Fin 100000) (k : Fin 64) :
    (V1 m ρ c main_v24 : S100000x64.Idx → EReal) (ix2 i k)
      = nbrSum (dstCol (a1 m c)) (srcCol (a1 m c)) (a0 m c) i k := by
  rw [arr_v24]
  refine (scatterAdd_rows_apply scatter_S100000x64_S1000000x1_S1000000x64_1_0_0_1.wf _ _ _ i k).trans ?_
  unfold nbrSum
  refine congrArg₂ (· + ·) rfl (Finset.sum_congr rfl fun e _ => ?_)
  rw [extf_apply]
  exact (gather_rows_apply (by decide) gather_S100000x64_S1000000x1_S1000000x64_1_0_n_n_0_1_164.wf _ _ e k).trans rfl

/-- The reciprocal degree. -/
theorem v12_apply (c : Dev nD) (i : Fin 100000) (u : Fin 1) :
    (V1 m ρ c main_v12 : S100000x1.Idx → EReal) (ix2 i u) = Ideal.div ow (deg (dstCol (a1 m c)) i) := by
  have e : Host.scatterAdd scatter_S100000_S1000000x1_S1000000_n_0_0_1
      (broadcastInDim S100000 ![] bcast_S_S100000 (constant (F := Ideal) S_ .f32 0x00000000#32)) (dstCol (a1 m c))
      (broadcastInDim S1000000 ![] bcast_S_S1000000 (constant (F := Ideal) S_ .f32 0x3F800000#32)) (ix1 i)
        = zw + ∑ _e ∈ into (dstCol (a1 m c)) i, ow :=
    (scatterAdd_flat_apply scatter_S100000_S1000000x1_S1000000_n_0_0_1.wf _ _ _ i).trans rfl
  rw [arr_v12, Cert.LibKeepdims.shapeCast_a_a1_apply, hostDivf_apply, maximumf_apply, e, bcast_const_apply]
  rfl

/-- The transposed weights and the bias row. -/
theorem v25_apply (c : Dev nD) (k q : Fin 64) :
    (V1 m ρ c main_v25 : S64x64.Idx → EReal) (ix2 k q) = a2 m c (ix2 q k) := by
  rw [arr_v25]; exact transpose_ix2_apply _ _ k q
theorem v26_apply (c : Dev nD) (k q : Fin 64) :
    (V1 m ρ c main_v26 : S64x64.Idx → EReal) (ix2 k q) = a4 m c (ix2 q k) := by
  rw [arr_v26]; exact transpose_ix2_apply _ _ k q
theorem v27_apply (c : Dev nD) (u : Fin 1) (q : Fin 64) :
    (V1 m ρ c main_v27 : S1x64.Idx → EReal) (ix2 u q) = a3 m c (ix1 q) := by
  rw [arr_v27]; exact shapeCast_a_1a_apply _ _ u q

/-- The padded projection matrix inside its first two columns. -/
theorem v31_apply (c : Dev nD) (k : Fin 64) (j : Fin 2) (j' : Fin 16) (hj : j'.val = j.val) :
    (V1 m ρ c main_v31 : S64x16.Idx → EReal) (ix2 k j') = a5 m c (ix2 j k) := by
  rw [arr_v31]
  refine (Cert.Lib.ColumnWindowSet.colWindow_set_apply scatter_S64x16_S1_S64x2_01_n_1_0.wf (by decide) _ _
    (fun _ => rfl) _ k j j' hj).trans ?_
  exact transpose_ix2_apply _ _ k j

/-- The neighbour sums of a projected table. -/
theorem v42_apply (c : Dev nD) (i : Fin 100000) (j' : Fin 16) :
    (V3 m ρ c main_v42 : S100000x16.Idx → EReal) (ix2 i j')
      = nbrSum (dstCol (a1 m c)) (srcCol (a1 m c)) (W2 m ρ c (Proc.devRef .tc main_v32_1) : S100000x16.Idx → EReal) i j' := by
  rw [arr_v42]
  refine (scatterAdd_rows_apply scatter_S100000x16_S1000000x1_S1000000x16_1_0_0_1.wf _ _ _ i j').trans ?_
  unfold nbrSum
  refine congrArg₂ (· + ·) rfl (Finset.sum_congr rfl fun e _ => ?_)
  exact (gather_rows_apply (by decide) gather_S100000x16_S1000000x1_S1000000x16_1_0_n_n_0_1_116.wf _ _ e j').trans rfl

theorem v43_apply (c : Dev nD) (k : Fin 64) (j : Fin 2) :
    (V3 m ρ c main_v43 : S64x2.Idx → EReal) (ix2 k j) = a7 m c (ix2 j k) := by
  rw [arr_v43]; exact transpose_ix2_apply _ _ k j
theorem v44_apply (c : Dev nD) (u : Fin 1) (j : Fin 2) :
    (V3 m ρ c main_v44 : S1x2.Idx → EReal) (ix2 u j) = a6 m c (ix1 j) := by
  rw [arr_v44]; exact shapeCast_a_1a_apply _ _ u j

end Cert.KernelIdeal.HostValue

end
-- ==== Proof.KernelValue.lean ====
/-
  The idealized kernel's result as a formula.

  The second call's result array is its layer-2 function of the arrays it is entered with; those are the hidden
  array and the reciprocal degrees the first call left or found, the neighbour sums of the projected hidden
  features, and the last weights and bias. Read at an index through the host operations this is the
  specification's `outK`: the kernel's spelling of the two layers over the edge sets of the argument graph.
-/
import proofs.«115820_j81140522156079_2_alg».proof.Proof.KernelHost
import proofs.«115820_j81140522156079_2_alg».proof.Proof.KernelRun

set_option maxRecDepth 16384

noncomputable section

namespace Cert.KernelIdeal.Result

open Cert.KernelIdeal Cert.KernelIdeal.Gen Cert.KernelIdeal.HostValue Cert.KernelIdeal.Regions Cert.Proof.Spec
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer of the kernel over the argument arrays of core c. -/
abbrev hid (c : Dev nD) (n : Fin 100000) (q : Fin 64) : EReal :=
  hidK (dstCol (a1 m c)) (srcCol (a1 m c)) (a0 m c) (a2 m c) (a4 m c) (a3 m c) n q

/-- The kernel's result over the argument arrays of core c. -/
def result (c : Dev nD) : S100000x2.Idx → EReal := fun idx =>
  outK (dstCol (a1 m c)) (srcCol (a1 m c)) (fun i2 : S100000x64.Idx => hid m c (i2 0) (i2 1)) (a5 m c) (a7 m c) (a6 m c) (idx 0) (idx 1)

/-- The hidden function of the first call's operands is the specification's first layer. -/
theorem hiddenArr_at (c : Dev nD) (n : Fin 100000) (q : Fin 64) :
    hiddenArr (V1 m ρ c main_v24) (V1 m ρ c main_arg0) (V1 m ρ c main_v12) (V1 m ρ c main_v25) (V1 m ρ c main_v26)
      (V1 m ρ c main_v27) (ix2 n q) = hid m c n q := by
  show hiddenAt (V1 m ρ c main_v24) (V1 m ρ c main_arg0) (V1 m ρ c main_v12) (V1 m ρ c main_v25) (V1 m ρ c main_v26)
      (V1 m ρ c main_v27) n q = hidK (dstCol (a1 m c)) (srcCol (a1 m c)) (a0 m c) (a2 m c) (a4 m c) (a3 m c) n q
  unfold hiddenAt hidK
  refine congrArg₂ max ?_ rfl
  refine congrArg₂ (· + ·) (congrArg₂ (· + ·) (Finset.sum_congr rfl fun k _ => ?_) (Finset.sum_congr rfl fun k _ => ?_)) ?_
  · rw [v24_apply, v12_apply, v25_apply]
  · rw [arr_arg0, v26_apply]
  · exact v27_apply m ρ c 0 q

/-- The projection array, inside its first two columns, is the hidden features contracted with the projection
    weights. -/
theorem proj_at (c : Dev nD) (n : Fin 100000) (j : Fin 2) (j' : Fin 16) (hj : j'.val = j.val) :
    (W2 m ρ c (Proc.devRef .tc main_v32_1) : S100000x16.Idx → EReal) (ix2 n j')
      = ∑ cc : Fin 64, hid m c n cc * a5 m c (ix2 j cc) := by
  rw [arr_v32_1, final_proj]
  show projAt _ (V1 m ρ c main_v31) n j' = _
  unfold projAt
  refine Finset.sum_congr rfl fun cc _ => ?_
  rw [v31_apply m ρ c cc j j' hj, hiddenArr_at]

/-- THE RESULT ARRAY of the idealized kernel. -/
theorem result_eq (c : Dev nD) : (dat1 (V3 m ρ) c).arrAt 5 cfg1.N = result m c := by
  rw [final_out]
  funext idx
  obtain ⟨i, j, rfl⟩ : ∃ (i : Fin 100000) (j : Fin 2), idx = ix2 i j := ⟨idx 0, idx 1, eq_ix2 idx⟩
  -- the summed projections at (i, j): the neighbours' hidden features contracted with the projection weights
  have hu : (V3 m ρ c main_v42 : S100000x16.Idx → EReal) (ix2 i (⟨j.val, by omega⟩ : Fin 16))
      = zw + ∑ e ∈ into (dstCol (a1 m c)) i, ∑ cc : Fin 64, hid m c (src (srcCol (a1 m c)) e) cc * a5 m c (ix2 j cc) := by
    rw [v42_apply]
    unfold nbrSum
    refine congrArg (zw + ·) (Finset.sum_congr rfl fun e _ => ?_)
    exact proj_at m ρ c _ j ⟨j.val, by omega⟩ rfl
  -- the node's own term, summand by summand
  have hh : ∀ cc : Fin 64,
      hiddenArr (V1 m ρ c main_v24) (V1 m ρ c main_arg0) (V1 m ρ c main_v12) (V1 m ρ c main_v25) (V1 m ρ c main_v26)
          (V1 m ρ c main_v27) (ix2 i cc) * transpose S64x2 [1, 0] (a7 m c) transposes_S2x64_S64x2_1_0 (ix2 cc j)
        = hid m c i cc * a7 m c (ix2 j cc) := by
    intro cc
    rw [hiddenArr_at, transpose_ix2_apply]
  show outAt (V3 m ρ c main_v42) (V3 m ρ c main_v32_0) (V3 m ρ c main_v12) (V3 m ρ c main_v43) (V3 m ρ c main_v44) i j
    = ((∑ cc : Fin 64, hid m c i cc * a7 m c (ix2 j cc))
        + (zw + ∑ e ∈ into (dstCol (a1 m c)) i, ∑ cc : Fin 64, hid m c (src (srcCol (a1 m c)) e) cc * a5 m c (ix2 j cc))
          * Ideal.div ow (deg (dstCol (a1 m c)) i))
      + a6 m c (ix1 j)
  unfold outAt
  rw [hu, arr_v12', v12_apply, v44_apply, arr_v32_0, final_hidden, arr_v43, Finset.sum_congr rfl fun cc _ => hh cc]

end Cert.KernelIdeal.Result

end
-- ==== Proof.ReferenceValue.lean ====
/-
  The reference program's result read as a formula.

  The reference is two layers of a mean-aggregating graph convolution over 100000 nodes and 1000000 edges. A layer
  gathers one row of its node table per edge at the edge's source word (a negative word wrapped once, the read clamped
  into the table), adds the gathered rows into a table of zeros at the edge's destination word (a word outside the table
  lands nowhere), counts the edges into each node the same way, divides the sums by max(count, 1), multiplies the means
  by one weight matrix, and adds the node's own features times another weight matrix and a bias; the first layer is then
  clamped below at zero. Read at an index, one operation at a time, the first layer is the formula hidR and the second,
  over the first layer's values, the formula outR.
-/
import proofs.«115820_j81140522156079_2_alg».proof.Proof.Gen.ReferenceIdeal.Read
import proofs.«115820_j81140522156079_2_alg».proof.Proof.Spec

noncomputable section

namespace Cert.ReferenceIdeal.RefValue

open Cert.ReferenceIdeal Cert.ReferenceIdeal.Gen Cert.ReferenceIdeal.Read Cert.Proof.Spec Idealize.ShloMosaic
  Idealize.ShloMosaic.ValueIdx

/-- the destination and source columns, as the reference computes them -/
abbrev dstCol (x1 : (⟨S2x1000000, .i32⟩ : BufTy).Contents (Elt Ideal)) : IVec S1000000x1 32 := val_main_v12 (F := Ideal) x1
abbrev srcCol (x1 : (⟨S2x1000000, .i32⟩ : BufTy).Contents (Elt Ideal)) : IVec S1000000x1 32 := val_main_v9 (F := Ideal) x1

/-- The words the reference's float constants stand for, read at an index of the arrays they are broadcast to. -/
theorem zeros_value (j : S100000x64.Idx) : val_main_v11 (F := Ideal) j = zw := by
  rw [val_main_v11_apply, val_main_cst_apply, Ideal.ofBits_def]
theorem count_zero_value (i : Fin 100000) : val_main_v15 (F := Ideal) (ix1 i) = zw := by
  rw [val_main_v15_apply, val_main_cst_2_apply, Ideal.ofBits_def]
theorem count_one_value (e : Fin 1000000) : val_main_v14 (F := Ideal) (ix1 e) = ow := by
  rw [val_main_v14_apply, val_main_cst_1_apply, Ideal.ofBits_def]
theorem floor_one_value (i : Fin 100000) : val_main_v18 (F := Ideal) (ix1 i) = ow := by
  rw [val_main_v18_apply, val_main_cst_3_apply, Ideal.ofBits_def]
theorem relu_zero_value (j : S100000x64.Idx) : val_main_call0_v0 (F := Ideal) j = zw := by
  rw [val_main_call0_v0_apply, val_main_call0_cst_apply, Ideal.ofBits_def]

section columns
variable (x1 : (⟨S2x1000000, .i32⟩ : BufTy).Contents (Elt Ideal))

/-- THE EDGE COUNT: ones added into zeros at the destination column, read at i, count the edges into i. -/
theorem count_value (i : Fin 100000) :
    val_main_v17 (F := Ideal) x1 (ix1 i) = zw + ∑ _e ∈ into (dstCol x1) i, ow := by
  unfold val_main_v17 into
  refine (Cert.LibScatterRows.scatterAdd_flat_apply scatter_S100000_S1000000x1_S1000000_n_0_0_1_wf
      (val_main_v15 (F := Ideal)) (val_main_v12 (F := Ideal) x1) (val_main_v14 (F := Ideal)) i).trans ?_
  rw [count_zero_value]
  refine congrArg (zw + ·) (Finset.sum_congr rfl fun e _ => ?_)
  rw [count_one_value]

/-- THE DEGREE: the edge count clamped below at one. -/
theorem deg_value (i : Fin 100000) : val_main_v19 (F := Ideal) x1 (ix1 i) = deg (dstCol x1) i := by
  rw [val_main_v19_apply, count_value, floor_one_value, Ideal.maximumf_def]
  unfold deg
  rfl

/-- The degree broadcast along the feature axis. -/
theorem deg_row_value (i : Fin 100000) (k : Fin 64) : val_main_v21 (F := Ideal) x1 (ix2 i k) = deg (dstCol x1) i := by
  rw [val_main_v21_apply, val_main_v20_apply]
  have h : idx_main_v20 (idx_main_v21 (ix2 i k)) = ix1 i := funext fun a => Fin.ext (by match a with | ⟨0, _⟩ => rfl)
  rw [h, deg_value]

/-- THE NEIGHBOUR SUM: the rows of a table T gathered at the source column and added into zeros at the destination
    column, read at (i, k), are column k of T summed over the sources of the edges into i. -/
theorem nbr_value (T : (⟨S100000x64, .f32⟩ : BufTy).Contents (Elt Ideal)) (i : Fin 100000) (k : Fin 64) :
    Host.scatterAdd (F := Ideal) (φ := .f32) scatter_S100000x64_S1000000x1_S1000000x64_1_0_0_1 (val_main_v11 (F := Ideal))
        (val_main_v12 (F := Ideal) x1)
        (Host.gather gather_S100000x64_S1000000x1_S1000000x64_1_0_n_n_0_1_164 T (val_main_v9 (F := Ideal) x1)) (ix2 i k)
      = nbrSum (dstCol x1) (srcCol x1) T i k := by
  unfold nbrSum into src
  refine (Cert.LibScatterRows.scatterAdd_rows_apply (φ := .f32) scatter_S100000x64_S1000000x1_S1000000x64_1_0_0_1_wf
    (val_main_v11 (F := Ideal)) (val_main_v12 (F := Ideal) x1)
    (Host.gather gather_S100000x64_S1000000x1_S1000000x64_1_0_n_n_0_1_164 T (val_main_v9 (F := Ideal) x1)) i k).trans ?_
  rw [zeros_value]
  refine congrArg (zw + ·) (Finset.sum_congr rfl fun e _ => ?_)
  exact Cert.LibRowGather.gather_rows_apply (by decide) gather_S100000x64_S1000000x1_S1000000x64_1_0_n_n_0_1_164_wf T
    (val_main_v9 (F := Ideal) x1) e k

end columns

section layer1
variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal))

/-- The first layer's neighbour sums. -/
theorem nbr1_value (i : Fin 100000) (k : Fin 64) :
    val_main_v13 (F := Ideal) x0 x1 (ix2 i k) = nbrSum (dstCol x1) (srcCol x1) x0 i k := nbr_value x1 x0 i k

/-- The first layer's neighbour means. -/
theorem mean1_value (i : Fin 100000) (k : Fin 64) :
    val_main_v22 (F := Ideal) x0 x1 (ix2 i k)
      = Ideal.div (nbrSum (dstCol x1) (srcCol x1) x0 i k) (deg (dstCol x1) i) := by
  rw [val_main_v22_apply, Ideal.hostDivf_def, deg_row_value, nbr1_value]

/-- The means times the first weight matrix, transposed. -/
theorem agg1_value (i : Fin 100000) (q : Fin 64) :
    val_main_v24 (F := Ideal) x0 x1 x2 (ix2 i q)
      = ∑ k : Fin 64, Ideal.div (nbrSum (dstCol x1) (srcCol x1) x0 i k) (deg (dstCol x1) i) * x2 (ix2 q k) := by
  rw [val_main_v24_apply]
  refine Finset.sum_congr rfl fun k _ => ?_
  have hl : lidx_main_v24 (ix2 i q) k = ix2 i k :=
    funext fun a => Fin.ext (by match a with | ⟨0, _⟩ => rfl | ⟨1, _⟩ => rfl)
  have hr : idx_main_v23 (ridx_main_v24 (ix2 i q) k) = ix2 q k :=
    funext fun a => Fin.ext (by match a with | ⟨0, _⟩ => rfl | ⟨1, _⟩ => rfl)
  rw [hl, val_main_v23_apply, hr, mean1_value]

/-- The node's own features times the second weight matrix, transposed. -/
theorem self1_value (i : Fin 100000) (q : Fin 64) :
    val_main_v26 (F := Ideal) x0 x4 (ix2 i q) = ∑ k : Fin 64, x0 (ix2 i k) * x4 (ix2 q k) := by
  rw [val_main_v26_apply]
  refine Finset.sum_congr rfl fun k _ => ?_
  have hl : lidx_main_v26 (ix2 i q) k = ix2 i k :=
    funext fun a => Fin.ext (by match a with | ⟨0, _⟩ => rfl | ⟨1, _⟩ => rfl)
  have hr : idx_main_v25 (ridx_main_v26 (ix2 i q) k) = ix2 q k :=
    funext fun a => Fin.ext (by match a with | ⟨0, _⟩ => rfl | ⟨1, _⟩ => rfl)
  rw [hl, val_main_v25_apply, hr]

/-- The bias broadcast along the node axis. -/
theorem bias1_value (i : Fin 100000) (q : Fin 64) : val_main_v29 (F := Ideal) x3 (ix2 i q) = x3 (ix1 q) := by
  rw [val_main_v29_apply, val_main_v28_apply]
  exact congrArg x3 (funext fun a => Fin.ext (by match a with | ⟨0, _⟩ => rfl))

/-- The first layer read at (i, q). -/
theorem hidden_at (i : Fin 100000) (q : Fin 64) :
    val_main_v31 (F := Ideal) x0 x1 x2 x3 x4 (ix2 i q) = hidR (dstCol x1) (srcCol x1) x0 x2 x4 x3 i q := by
  rw [val_main_v31_apply, val_main_v30_apply, val_main_v27_apply, agg1_value, self1_value, bias1_value, relu_zero_value,
    Ideal.maximumf_def, Ideal.addf_def, Ideal.addf_def]
  rfl

end layer1

/-- THE HIDDEN FEATURES: the first layer's sum of the projected neighbour means, the projected own features and the
    bias, clamped below at zero. -/
theorem hidden_value (x0 : (⟨S100000x64, .f32⟩ : BufTy).Contents (Elt Ideal))
    (x1 : (⟨S2x1000000, .i32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (i : Fin 100000) (q : Fin 64) :
    val_main_v31 (F := Ideal) x0 x1 x2 x3 x4 (ix2 i q) = hidR (dstCol x1) (srcCol x1) x0 x2 x4 x3 i q :=
  hidden_at x0 x1 x2 x3 x4 i q

section layer2
variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S2x64, .f32⟩ : BufTy).Contents (Elt Ideal))
  (x6 : (⟨S2, .f32⟩ : BufTy).Contents (Elt Ideal)) (x7 : (⟨S2x64, .f32⟩ : BufTy).Contents (Elt Ideal))

/-- The second layer recomputes the source column, the destination column and the degree by the same operations on
    the same edge array: they are the first layer's terms. -/
theorem srcCol_again : val_main_v37 (F := Ideal) x1 = srcCol x1 := rfl
theorem dstCol_again : val_main_v40 (F := Ideal) x1 = dstCol x1 := rfl
theorem dstCol_count : val_main_v16 (F := Ideal) x1 = dstCol x1 := rfl
theorem dstCol_count_again : val_main_v44 (F := Ideal) x1 = dstCol x1 := rfl
theorem deg_again : val_main_v47 (F := Ideal) x1 = val_main_v19 (F := Ideal) x1 := rfl

/-- The degree broadcast along the feature axis, second layer. -/
theorem deg_row2_value (i : Fin 100000) (c : Fin 64) : val_main_v49 (F := Ideal) x1 (ix2 i c) = deg (dstCol x1) i := by
  rw [val_main_v49_apply, val_main_v48_apply]
  have h : idx_main_v48 (idx_main_v49 (ix2 i c)) = ix1 i := funext fun a => Fin.ext (by match a with | ⟨0, _⟩ => rfl)
  rw [h, deg_again, deg_value]

/-- The second layer's neighbour sums, of the hidden features. -/
theorem nbr2_value (i : Fin 100000) (c : Fin 64) :
    val_main_v41 (F := Ideal) x0 x1 x2 x3 x4 (ix2 i c)
      = nbrSum (dstCol x1) (srcCol x1) (val_main_v31 (F := Ideal) x0 x1 x2 x3 x4) i c :=
  nbr_value x1 (val_main_v31 (F := Ideal) x0 x1 x2 x3 x4) i c

/-- The second layer's neighbour means. -/
theorem mean2_value (i : Fin 100000) (c : Fin 64) :
    val_main_v50 (F := Ideal) x0 x1 x2 x3 x4 (ix2 i c)
      = Ideal.div (nbrSum (dstCol x1) (srcCol x1) (val_main_v31 (F := Ideal) x0 x1 x2 x3 x4) i c) (deg (dstCol x1) i) := by
  rw [val_main_v50_apply, Ideal.hostDivf_def, deg_row2_value, nbr2_value]

/-- The means times the third weight matrix, transposed. -/
theorem agg2_value (i : Fin 100000) (j : Fin 2) :
    val_main_v52 (F := Ideal) x0 x1 x2 x3 x4 x5 (ix2 i j)
      = ∑ c : Fin 64, Ideal.div (nbrSum (dstCol x1) (srcCol x1) (val_main_v31 (F := Ideal) x0 x1 x2 x3 x4) i c)
          (deg (dstCol x1) i) * x5 (ix2 j c) := by
  rw [val_main_v52_apply]
  refine Finset.sum_congr rfl fun c _ => ?_
  have hl : lidx_main_v52 (ix2 i j) c = ix2 i c :=
    funext fun a => Fin.ext (by match a with | ⟨0, _⟩ => rfl | ⟨1, _⟩ => rfl)
  have hr : idx_main_v51 (ridx_main_v52 (ix2 i j) c) = ix2 j c :=
    funext fun a => Fin.ext (by match a with | ⟨0, _⟩ => rfl | ⟨1, _⟩ => rfl)
  rw [hl, val_main_v51_apply, hr, mean2_value]

/-- The hidden features times the fourth weight matrix, transposed. -/
theorem self2_value (i : Fin 100000) (j : Fin 2) :
    val_main_v54 (F := Ideal) x0 x1 x2 x3 x4 x7 (ix2 i j)
      = ∑ c : Fin 64, val_main_v31 (F := Ideal) x0 x1 x2 x3 x4 (ix2 i c) * x7 (ix2 j c) := by
  rw [val_main_v54_apply]
  refine Finset.sum_congr rfl fun c _ => ?_
  have hl : lidx_main_v54 (ix2 i j) c = ix2 i c :=
    funext fun a => Fin.ext (by match a with | ⟨0, _⟩ => rfl | ⟨1, _⟩ => rfl)
  have hr : idx_main_v53 (ridx_main_v54 (ix2 i j) c) = ix2 j c :=
    funext fun a => Fin.ext (by match a with | ⟨0, _⟩ => rfl | ⟨1, _⟩ => rfl)
  rw [hl, val_main_v53_apply, hr]

/-- The second bias broadcast along the node axis. -/
theorem bias2_value (i : Fin 100000) (j : Fin 2) : val_main_v57 (F := Ideal) x6 (ix2 i j) = x6 (ix1 j) := by
  rw [val_main_v57_apply, val_main_v56_apply]
  exact congrArg x6 (funext fun a => Fin.ext (by match a with | ⟨0, _⟩ => rfl))

/-- The result at (i, j). -/
theorem result_at (i : Fin 100000) (j : Fin 2) :
    val_main_v58 (F := Ideal) x0 x1 x2 x3 x4 x5 x6 x7 (ix2 i j)
      = outR (dstCol x1) (srcCol x1) (val_main_v31 (F := Ideal) x0 x1 x2 x3 x4) x5 x7 x6 i j := by
  rw [val_main_v58_apply, val_main_v55_apply, agg2_value, self2_value, bias2_value, Ideal.addf_def, Ideal.addf_def]
  rfl

end layer2

/-- THE RESULT: the second layer over the hidden features, the sum of the projected neighbour means, the projected
    hidden features and the bias. -/
theorem result_value (x0 : (⟨S100000x64, .f32⟩ : BufTy).Contents (Elt Ideal))
    (x1 : (⟨S2x1000000, .i32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S2x64, .f32⟩ : BufTy).Contents (Elt Ideal)) (x6 : (⟨S2, .f32⟩ : BufTy).Contents (Elt Ideal))
    (x7 : (⟨S2x64, .f32⟩ : BufTy).Contents (Elt Ideal)) :
    val_main_v58 (F := Ideal) x0 x1 x2 x3 x4 x5 x6 x7
      = fun idx => outR (dstCol x1) (srcCol x1) (val_main_v31 (F := Ideal) x0 x1 x2 x3 x4) x5 x7 x6 (idx 0) (idx 1) := by
  funext idx
  obtain ⟨i, j, rfl⟩ : ∃ (i : Fin 100000) (j : Fin 2), idx = ix2 i j := ⟨idx 0, idx 1, eq_ix2 idx⟩
  exact result_at x0 x1 x2 x3 x4 x5 x6 x7 i j

end Cert.ReferenceIdeal.RefValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  The precondition "every float input is finite", read back.

  The printed predicate tests each float array `a` by `all (|a| < +∞)`: the absolute value of every element is compared
  (ordered, strictly below) with the word `0x7F800000` of `+∞`, the element bits are folded by `and` into one bit, and the
  seven bits (one per float argument; the integer argument is not tested) are joined by `and`. Over the extended reals
  `|x| < +∞` excludes exactly `+∞` and `-∞`, so the predicate being 1 says that every element of every float argument is
  a real number.
-/
import proofs.«115820_j81140522156079_2_alg».proof.Pre_finite_inputs
import proofs.«115820_j81140522156079_2_alg».proof.Proof.LibFiniteEReal
import Idealize.ShloMosaic.Lib.ReduceAll

noncomputable section

namespace Cert.Proof.FiniteInputs

open Idealize.ShloMosaic

/-- The rank-0 shape has one index. -/
instance : Subsingleton Cert.Pre_finite_inputs.S_.Idx := ⟨fun a b => funext fun d => d.elim0⟩

/-- One array's test. If the fold by `and` of the element bits `|a i| < +∞` (the bound being the scalar word
    `0x7F800000` broadcast to the array's shape) is 1 at the one index of the rank-0 result, then every element bit is 1,
    and an extended real whose absolute value is below `+∞` is a real number. -/
theorem real_of_all_abs_lt {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a)
          (broadcastInDim s ![] hb (constant (F := Ideal) Cert.Pre_finite_inputs.S_ .f32 0x7F800000#32)))
        init hr hu j = 1#1) :
    ∀ i, ∃ r : ℝ, a i = (r : EReal) := by
  intro i
  have hi := Host.reduce_andi_all _ init hr hu j e i
  exact Cert.Lib.FiniteEReal.real_of_abs_lt (a i) hi

/-- The precondition read back: when the printed predicate is 1, every element of each of the seven float arguments is
    a real number. The joined bit is 1 only if each of the seven bits is, and each bit is one array's test. -/
theorem real_entries [Cert.Pre_finite_inputs.Facts]
    (a0 : FVec Ideal Cert.Pre_finite_inputs.S100000x64 .f32) (a1 : IVec Cert.Pre_finite_inputs.S2x1000000 32)
    (a2 : FVec Ideal Cert.Pre_finite_inputs.S64x64 .f32) (a3 : FVec Ideal Cert.Pre_finite_inputs.S64 .f32)
    (a4 : FVec Ideal Cert.Pre_finite_inputs.S64x64 .f32) (a5 : FVec Ideal Cert.Pre_finite_inputs.S2x64 .f32)
    (a6 : FVec Ideal Cert.Pre_finite_inputs.S2 .f32) (a7 : FVec Ideal Cert.Pre_finite_inputs.S2x64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have h0 : Cert.Pre_finite_inputs.fn (F := Ideal) a0 a1 a2 a3 a4 a5 a6 a7 (fun d => d.elim0) = 1#1 :=
    congrFun h _
  unfold Cert.Pre_finite_inputs.fn Cert.Pre_finite_inputs.fn_part1 at h0
  dsimp only [Idealize.ShloMosaic.andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all_abs_lt a0 _ _ _ _ _ e0, real_of_all_abs_lt a2 _ _ _ _ _ e2, real_of_all_abs_lt a3 _ _ _ _ _ e3,
    real_of_all_abs_lt a4 _ _ _ _ _ e4, real_of_all_abs_lt a5 _ _ _ _ _ e5, real_of_all_abs_lt a6 _ _ _ _ _ e6,
    real_of_all_abs_lt a7 _ _ _ _ _ e7⟩

end Cert.Proof.FiniteInputs

end
-- ==== Proof.Bridge.lean ====
/-
  The two results are one function of the arguments, under the precondition.

  The kernel's result is the specification's `outK` over the edge columns as the kernel computes them, the
  reference's is `outR` over the columns as the reference computes them. The columns are the same operations of
  the edge list; the first layers agree outright; and when every float input is finite the hidden features and
  the weights are real, so the second layers agree.
-/
import proofs.«115820_j81140522156079_2_alg».proof.Proof.KernelValue
import proofs.«115820_j81140522156079_2_alg».proof.Proof.ReferenceValue
import proofs.«115820_j81140522156079_2_alg».proof.Proof.FiniteInputs

set_option maxRecDepth 16384

noncomputable section

namespace Cert.Proof.Bridge

open Idealize.ShloMosaic Idealize.ShloMosaic.TcCoe Idealize.SL.Sem Idealize.ShloMosaic.ValueIdx
open Cert.Proof.Spec Cert.Proof.MeanLaw

/-- The kernel and the reference compute the destination column by the same operations of the edge list. -/
theorem dstCol_eq (x1 : IVec Cert.KernelIdeal.S2x1000000 32) :
    Cert.ReferenceIdeal.RefValue.dstCol x1 = Cert.KernelIdeal.HostValue.dstCol x1 := rfl
/-- … and the source column. -/
theorem srcCol_eq (x1 : IVec Cert.KernelIdeal.S2x1000000 32) :
    Cert.ReferenceIdeal.RefValue.srcCol x1 = Cert.KernelIdeal.HostValue.srcCol x1 := rfl

/-- THE RESULTS AGREE: for real features, weights and biases the reference's result term is the kernel's result. -/
theorem result_eq (x0 : (⟨2, ![100000, 64]⟩ : Shape).Idx → EReal) (x1 : IVec Cert.KernelIdeal.S2x1000000 32)
    (x2 x4 : (⟨2, ![64, 64]⟩ : Shape).Idx → EReal) (x3 : (⟨1, ![64]⟩ : Shape).Idx → EReal)
    (x5 x7 : (⟨2, ![2, 64]⟩ : Shape).Idx → EReal) (x6 : (⟨1, ![2]⟩ : Shape).Idx → EReal)
    (h0 : ∀ j, IsReal (x0 j)) (h2 : ∀ j, IsReal (x2 j)) (h3 : ∀ j, IsReal (x3 j)) (h4 : ∀ j, IsReal (x4 j))
    (h5 : ∀ j, IsReal (x5 j)) :
    Cert.ReferenceIdeal.Read.val_main_v58 (F := Ideal) x0 x1 x2 x3 x4 x5 x6 x7
      = fun idx => outK (Cert.KernelIdeal.HostValue.dstCol x1) (Cert.KernelIdeal.HostValue.srcCol x1)
          (fun i2 : (⟨2, ![100000, 64]⟩ : Shape).Idx =>
            hidK (Cert.KernelIdeal.HostValue.dstCol x1) (Cert.KernelIdeal.HostValue.srcCol x1) x0 x2 x4 x3 (i2 0) (i2 1))
          x5 x7 x6 (idx 0) (idx 1) := by
  rw [Cert.ReferenceIdeal.RefValue.result_value, dstCol_eq, srcCol_eq]
  have hH : (Cert.ReferenceIdeal.Read.val_main_v31 (F := Ideal) x0 x1 x2 x3 x4 : (⟨2, ![100000, 64]⟩ : Shape).Idx → EReal)
      = fun i2 => hidK (Cert.KernelIdeal.HostValue.dstCol x1) (Cert.KernelIdeal.HostValue.srcCol x1) x0 x2 x4 x3 (i2 0) (i2 1) := by
    funext i2
    obtain ⟨n, q, rfl⟩ : ∃ (n : Fin 100000) (q : Fin 64), i2 = ix2 n q := ⟨i2 0, i2 1, eq_ix2 i2⟩
    rw [Cert.ReferenceIdeal.RefValue.hidden_value, dstCol_eq, srcCol_eq]
    exact (hid_eq _ _ x0 x2 x4 x3 n q).symm
  rw [hH]
  funext idx
  refine (out_eq _ _ _ x5 x7 x6 (fun j => ?_) h5 (idx 0) (idx 1)).symm
  obtain ⟨n, q, rfl⟩ : ∃ (n : Fin 100000) (q : Fin 64), j = ix2 n q := ⟨j 0, j 1, eq_ix2 j⟩
  show IsReal (hidK (Cert.KernelIdeal.HostValue.dstCol x1) (Cert.KernelIdeal.HostValue.srcCol x1) x0 x2 x4 x3 n q)
  rw [hid_eq]
  exact hid_real _ _ x0 x2 x4 x3 h0 h2 h4 h3 n q

end Cert.Proof.Bridge

end
-- ==== Proof.lean ====
/-
  Two layers of mean-aggregating graph convolution (100000 nodes, 1000000 edges, 64 features, 2 classes):
  the kernel against its reference, over the extended reals.

  The kernel is two pallas_calls among host operations. The host side gathers and scatter-adds rows along the edge
  list; the first call combines, per block of 5000 nodes, the neighbour sums (scaled by the reciprocal degree) and the
  node's own features with two weight matrices, a bias and a clamp at 0, and also projects the hidden features
  by the (padded) second-layer weights; the second call adds the neighbour sums of those projections, scaled by
  the reciprocal degree, to the hidden features times the last weights and the bias. The reference divides by
  the degree where the kernel multiplies by its reciprocal, and sums the neighbours' hidden features before
  projecting them where the kernel projects first. Both are the same function: the degree is a real number ≥ 1,
  and under the precondition (every float input finite) the hidden features and weights are real, so the mean
  aggregation is linear.

  The three frames are the programs' runs with their results dropped; the idealization rewrote no operation;
  the value claim joins the kernel's run (its result array named, read through the two calls' blocks and the
  host operations as the specification's `outK`) with the reference's run (read operation by operation as `outR`).
-/
import proofs.«115820_j81140522156079_2_alg».proof.Defs
import proofs.«115820_j81140522156079_2_alg».proof.Proof.Gen.Kernel
import proofs.«115820_j81140522156079_2_alg».proof.Proof.Gen.Kernel.Skeleton
import proofs.«115820_j81140522156079_2_alg».proof.Proof.Gen.Kernel.Launch
import proofs.«115820_j81140522156079_2_alg».proof.Proof.Gen.Kernel.Points
import proofs.«115820_j81140522156079_2_alg».proof.Proof.Gen.Kernel.Frame
import proofs.«115820_j81140522156079_2_alg».proof.Proof.Gen.KernelIdeal
import proofs.«115820_j81140522156079_2_alg».proof.Proof.Gen.KernelIdeal.Skeleton
import proofs.«115820_j81140522156079_2_alg».proof.Proof.Gen.KernelIdeal.Launch
import proofs.«115820_j81140522156079_2_alg».proof.Proof.Gen.KernelIdeal.Points
import proofs.«115820_j81140522156079_2_alg».proof.Proof.Gen.KernelIdeal.Frame
import proofs.«115820_j81140522156079_2_alg».proof.Proof.Gen.ReferenceIdeal
import proofs.«115820_j81140522156079_2_alg».proof.Proof.Gen.ReferenceIdeal.Run
import proofs.«115820_j81140522156079_2_alg».proof.Proof.Gen.ReferenceIdeal.Read
import proofs.«115820_j81140522156079_2_alg».proof.Proof.Gen.Pre_finite_inputs
import proofs.«115820_j81140522156079_2_alg».proof.Proof.KernelRun
import proofs.«115820_j81140522156079_2_alg».proof.Proof.KernelValue
import proofs.«115820_j81140522156079_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, finite on the float ones, both programs end with the kernel's
    result function of the arguments, and the edge list unchanged. -/
theorem algebraic : Cert.algebraic_KernelIdeal_ReferenceIdeal := by
  intro m ρ m' ρ' hpre hagree
  refine ⟨fun c => Cert.KernelIdeal.Result.result m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.RunValue.run (F := Ideal) m ρ)
    obtain ⟨hv, h0, h1, h2, h3, h4, h5, h6, h7⟩ := h c
    exact ⟨hv.trans (Cert.KernelIdeal.Result.result_eq m ρ c), h1, h0, h1, h2, h3, h4, h5, h6, h7⟩
  · refine (θ_run Cert.ReferenceIdeal.defs _ _).mono (fun r h c => ?_) (Cert.ReferenceIdeal.Value.run (F := Ideal) m' ρ')
    obtain ⟨hv, -, h0, h1, h2, h3, h4, h5, h6, h7⟩ := h c
    obtain ⟨g0, g1, g2, g3, g4, g5, g6, g7⟩ := hagree c
    obtain ⟨r0, r2, r3, r4, r5, -, -⟩ := Cert.Proof.FiniteInputs.real_entries _ _ _ _ _ _ _ _ (hpre c)
    refine ⟨hv.trans ?_, h1.trans g1, h0, h1, h2, h3, h4, h5, h6, h7⟩
    rw [Cert.ReferenceIdeal.Read.val_main_v58_eq, g0, g1, g2, g3, g4, g5, g6, g7]
    exact Cert.Proof.Bridge.result_eq _ _ _ _ _ _ _ _ r0 r2 r3 r4 r5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
